-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S4x512x256 : Shape := ⟨3, ![4, 512, 256]⟩
abbrev S256x256 : Shape := ⟨2, ![256, 256]⟩
abbrev S256 : Shape := ⟨1, ![256]⟩
abbrev S3x256 : Shape := ⟨2, ![3, 256]⟩
abbrev S3 : Shape := ⟨1, ![3]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S4x512x256 : S_.BroadcastsInDim S4x512x256 (![] : Fin 0 → Fin S4x512x256.rank)
  reducesTo_S4x512x256_S_d0_1_2 : S4x512x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3x256 .f32) (main_arg5 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S3x256 .f32 := Host.absf main_arg4
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S262144x2 .f32) (main_arg1 : FVec F S4x512x256 .f32) (main_arg2 : FVec F S256x256 .f32) (main_arg3 : FVec F S256 .f32) (main_arg4 : FVec F S3x256 .f32) (main_arg5 : FVec F S3 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S4x512x256 .f32 := Host.absf main_arg1
  let main_cst_0 : FVec F S_ .f32 := constant S_ .f32 0x7F800000#32
  let main_v5 : FVec F S4x512x256 .f32 := broadcastInDim S4x512x256 ![] bcast_S_S4x512x256 main_cst_0
  let main_v6 : IVec S4x512x256 1 := cmpf .olt main_v4 main_v5
  let main_c_1 : IVec S_ 1 := constantI S_ 1 1#1
  let main_v7 : IVec S_ 1 := (fun x v => Host.reduce IntOp.andi x v reducesTo_S4x512x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S262144x2 : Shape := ⟨2, ![262144, 2]⟩
abbrev S4x512x256 : Shape := ⟨3, ![4, 512, 256]⟩
abbrev S256x256 : Shape := ⟨2, ![256, 256]⟩
abbrev S256 : Shape := ⟨1, ![256]⟩
abbrev S3x256 : Shape := ⟨2, ![3, 256]⟩
abbrev S3 : Shape := ⟨1, ![3]⟩
abbrev S2048x256 : Shape := ⟨2, ![2048, 256]⟩
abbrev S256x3 : Shape := ⟨2, ![256, 3]⟩
abbrev S1x256 : Shape := ⟨2, ![1, 256]⟩
abbrev S1x3 : Shape := ⟨2, ![1, 3]⟩
abbrev S262144x3 : Shape := ⟨2, ![262144, 3]⟩
abbrev S1024x2 : Shape := ⟨2, ![1024, 2]⟩
abbrev S1024x3 : Shape := ⟨2, ![1024, 3]⟩
abbrev S1024x2048 : Shape := ⟨2, ![1024, 2048]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 15
  | .vmem => 10
  | .smem => 0
  | _ => 0

abbrev bufTy : (tb : Table) → Fin (tcTables nBuf tb) → BufTy
  | .hbm, ⟨0, _⟩ => ⟨S262144x2, .f32⟩
  | .hbm, ⟨1, _⟩ => ⟨S4x512x256, .f32⟩
  | .hbm, ⟨2, _⟩ => ⟨S256x256, .f32⟩
  | .hbm, ⟨3, _⟩ => ⟨S256, .f32⟩
  | .hbm, ⟨4, _⟩ => ⟨S3x256, .f32⟩
  | .hbm, ⟨5, _⟩ => ⟨S3, .f32⟩
  | .hbm, ⟨6, _⟩ => ⟨S2048x256, .f32⟩
  | .hbm, ⟨7, _⟩ => ⟨S2048x256, .bf16⟩
  | .hbm, ⟨8, _⟩ => ⟨S256x256, .f32⟩
  | .hbm, ⟨9, _⟩ => ⟨S256x256, .bf16⟩
  | .hbm, ⟨10, _⟩ => ⟨S256x3, .f32⟩
  | .hbm, ⟨11, _⟩ => ⟨S256x3, .bf16⟩
  | .hbm, ⟨12, _⟩ => ⟨S1x256, .f32⟩
  | .hbm, ⟨13, _⟩ => ⟨S1x3, .f32⟩
  | .hbm, ⟨14, _⟩ => ⟨S262144x3, .f32⟩
  | .local _ .vmem, ⟨0, _⟩ => ⟨S1024x2, .f32⟩
  | .local _ .vmem, ⟨1, _⟩ => ⟨S1024x2, .f32⟩
  | .local _ .vmem, ⟨2, _⟩ => ⟨S2048x256, .bf16⟩
  | .local _ .vmem, ⟨3, _⟩ => ⟨S256x256, .bf16⟩
  | .local _ .vmem, ⟨4, _⟩ => ⟨S1x256, .f32⟩
  | .local _ .vmem, ⟨5, _⟩ => ⟨S256x3, .bf16⟩
  | .local _ .vmem, ⟨6, _⟩ => ⟨S1x3, .f32⟩
  | .local _ .vmem, ⟨7, _⟩ => ⟨S1024x3, .f32⟩
  | .local _ .vmem, ⟨8, _⟩ => ⟨S1024x3, .f32⟩
  | .local _ .vmem, ⟨9, _⟩ => ⟨S1024x2048, .bf16⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x512x256_S2048x256 : S4x512x256.ShapeCasts S2048x256
  bitsLt_bf16_f32 : FTy.bits .bf16 < FTy.bits .f32
  transposes_S256x256_S256x256_1_0 : S256x256.Transposes [1, 0] S256x256
  transposes_S3x256_S256x3_1_0 : S3x256.Transposes [1, 0] S256x3
  shapeCasts_S256_S1x256 : S256.ShapeCasts S1x256
  shapeCasts_S3_S1x3 : S3.ShapeCasts S1x3
  inb_S1024x2_S1024x2_0_0 : ∀ a, (![0, 0] : Fin 2 → Nat) a + S1024x2.size a ≤ S1024x2.size a
  h_S1024x2 : 0 < S1024x2.numel
  slices_S1024x2_o0_0_S1024x1 : S1024x2.Slices ![0, 0] S1024x1
  slices_S1024x2_o0_1_S1024x1 : S1024x2.Slices ![0, 1] S1024x1
  iota_S1024x512_d1_w32 : S1024x512.Iotas .tc 32 [1]
  broadcasts_S1024x1_S1024x512 : S1024x1.Broadcasts S1024x512
  inb_S1024x2048_S1024x512_0_0 : ∀ a, (![0, 0] : Fin 2 → Nat) a + S1024x512.size a ≤ S1024x2048.size a
  h_S1024x512 : 0 < S1024x512.numel
  shapeCasts_S1024x512_S1024x512 : S1024x512.ShapeCasts S1024x512
  packedbf16_S1024x2048_S1024x512_0_0 : (Rect.unit (s := S1024x2048) ![0, 0] S1024x512.size inb_S1024x2048_S1024x512_0_0).PackedRows (EltTy.packing .bf16)
  inb_S1024x2048_S1024x512_0_512 : ∀ a, (![0, 512] : Fin 2 → Nat) a + S1024x512.size a ≤ S1024x2048.size a
  packedbf16_S1024x2048_S1024x512_0_512 : (Rect.unit (s := S1024x2048) ![0, 512] S1024x512.size inb_S1024x2048_S1024x512_0_512).PackedRows (EltTy.packing .bf16)
  inb_S1024x2048_S1024x512_0_1024 : ∀ a, (![0, 1024] : Fin 2 → Nat) a + S1024x512.size a ≤ S1024x2048.size a
  packedbf16_S1024x2048_S1024x512_0_1024 : (Rect.unit (s := S1024x2048) ![0, 1024] S1024x512.size inb_S1024x2048_S1024x512_0_1024).PackedRows (EltTy.packing .bf16)
  inb_S1024x2048_S1024x512_0_1536 : ∀ a, (![0, 1536] : Fin 2 → Nat) a + S1024x512.size a ≤ S1024x2048.size a
  packedbf16_S1024x2048_S1024x512_0_1536 : (Rect.unit (s := S1024x2048) ![0, 1536] S1024x512.size inb_S1024x2048_S1024x512_0_1536).PackedRows (EltTy.packing .bf16)
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1024x3 : S1x3.Broadcasts S1024x3
  inb_S1024x3_S1024x3_0_0 : ∀ a, (![0, 0] : Fin 2 → Nat) a + S1024x3.size a ≤ S1024x3.size a
  h_S1024x3 : 0 < S1024x3.numel
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  dot_S1024x256_S256x3_S1024x3_1_0_0_1_n_n_wf : DotDims.WF S1024x256 S256x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S262144x2.size a
  hwx0_0 : ∀ i : grid0.Coords, EltTy.bits .f32 = 32 ∨ (Rect.block (s := S262144x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x3.size a ≤ S256x3.size a
  hwx0_4 : ∀ i : grid0.Coords, EltTy.bits .bf16 = 32 ∨ (Rect.block (s := S256x3) S256x3.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3.size a ≤ S1x3.size a
  hwx0_5 : ∀ i : grid0.Coords, EltTy.bits .f32 = 32 ∨ (Rect.block (s := S1x3) S1x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x3.size a ≤ S262144x3.size a
  hwx0_6 : ∀ i : grid0.Coords, EltTy.bits .f32 = 32 ∨ (Rect.block (s := S262144x3) S1024x3.size (cc0_transform_6 i) (hinb0_6 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x3_S1024x3_1_0_0_1_n_n : DotDims S1024x256 S256x3 S1024x3 where
  lhsContracting := [1]
  rhsContracting := [0]
  lhsNonContracting := [0]
  rhsNonContracting := [1]
  lhsBatch := []
  rhsBatch := []
  wf := dot_S1024x256_S256x3_S1024x3_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x2 : Shape := ⟨2, ![262144, 2]⟩
abbrev S4x512x256 : Shape := ⟨3, ![4, 512, 256]⟩
abbrev S256x256 : Shape := ⟨2, ![256, 256]⟩
abbrev S256 : Shape := ⟨1, ![256]⟩
abbrev S3x256 : Shape := ⟨2, ![3, 256]⟩
abbrev S3 : Shape := ⟨1, ![3]⟩
abbrev S_ : Shape := ⟨0, ![]⟩
abbrev S262144x1 : Shape := ⟨2, ![262144, 1]⟩
abbrev S262144x4 : Shape := ⟨2, ![262144, 4]⟩
abbrev S262144x4x1 : Shape := ⟨3, ![262144, 4, 1]⟩
abbrev S4 : Shape := ⟨1, ![4]⟩
abbrev S1x4 : Shape := ⟨2, ![1, 4]⟩
abbrev S262144x4x2 : Shape := ⟨3, ![262144, 4, 2]⟩
abbrev S262144x4x256 : Shape := ⟨3, ![262144, 4, 256]⟩
abbrev S262144x256 : Shape := ⟨2, ![262144, 256]⟩
abbrev S1x256 : Shape := ⟨2, ![1, 256]⟩
abbrev S256x3 : Shape := ⟨2, ![256, 3]⟩
abbrev S262144x3 : Shape := ⟨2, ![262144, 3]⟩
abbrev S1x3 : Shape := ⟨2, ![1, 3]⟩

abbrev nBuf : Space → Nat
  | .hbm => 119
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S4x512x256, .f32⟩
  | .hbm, ⟨2, _⟩ => ⟨S256x256, .f32⟩
  | .hbm, ⟨3, _⟩ => ⟨S256, .f32⟩
  | .hbm, ⟨4, _⟩ => ⟨S3x256, .f32⟩
  | .hbm, ⟨5, _⟩ => ⟨S3, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S262144x2, .f32⟩
  | .hbm, ⟨10, _⟩ => ⟨S262144x2, .f32⟩
  | .hbm, ⟨11, _⟩ => ⟨S_, .f32⟩
  | .hbm, ⟨12, _⟩ => ⟨S262144x2, .f32⟩
  | .hbm, ⟨13, _⟩ => ⟨S262144x2, .f32⟩
  | .hbm, ⟨14, _⟩ => ⟨S262144x1, .f32⟩
  | .hbm, ⟨15, _⟩ => ⟨S262144x1, .f32⟩
  | .hbm, ⟨16, _⟩ => ⟨S262144x1, .f32⟩
  | .hbm, ⟨17, _⟩ => ⟨S_, .f32⟩
  | .hbm, ⟨18, _⟩ => ⟨S262144x1, .f32⟩
  | .hbm, ⟨19, _⟩ => ⟨S262144x1, .f32⟩
  | .hbm, ⟨20, _⟩ => ⟨S262144x1, .f32⟩
  | .hbm, ⟨21, _⟩ => ⟨S262144x1, .f32⟩
  | .hbm, ⟨22, _⟩ => ⟨S262144x1, .f32⟩
  | .hbm, ⟨23, _⟩ => ⟨S_, .f32⟩
  | .hbm, ⟨24, _⟩ => ⟨S262144x1, .f32⟩
  | .hbm, ⟨25, _⟩ => ⟨S262144x1, .f32⟩
  | .hbm, ⟨26, _⟩ => ⟨S262144x4, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S262144x4, .f32⟩
  | .hbm, ⟨31, _⟩ => ⟨S262144x4, .f32⟩
  | .hbm, ⟨32, _⟩ => ⟨S_, .f32⟩
  | .hbm, ⟨33, _⟩ => ⟨S262144x4, .f32⟩
  | .hbm, ⟨34, _⟩ => ⟨S262144x4, .f32⟩
  | .hbm, ⟨35, _⟩ => ⟨S_, .f32⟩
  | .hbm, ⟨36, _⟩ => ⟨S262144x4, .f32⟩
  | .hbm, ⟨37, _⟩ => ⟨S262144x4, .f32⟩
  | .hbm, ⟨38, _⟩ => ⟨S_, .f32⟩
  | .hbm, ⟨39, _⟩ => ⟨S262144x4, .f32⟩
  | .hbm, ⟨40, _⟩ => ⟨S262144x4, .f32⟩
  | .hbm, ⟨41, _⟩ => ⟨S_, .f32⟩
  | .hbm, ⟨42, _⟩ => ⟨S262144x4, .f32⟩
  | .hbm, ⟨43, _⟩ => ⟨S262144x4, .f32⟩
  | .hbm, ⟨44, _⟩ => ⟨S262144x4, .f32⟩
  | .hbm, ⟨45, _⟩ => ⟨S262144x4, .i32⟩
  | .hbm, ⟨46, _⟩ => ⟨S262144x4, .f32⟩
  | .hbm, ⟨47, _⟩ => ⟨S262144x4, .f32⟩
  | .hbm, ⟨48, _⟩ => ⟨S262144x4x1, .f32⟩
  | .hbm, ⟨49, _⟩ => ⟨S4, .i32⟩
  | .hbm, ⟨50, _⟩ => ⟨S1x4, .i32⟩
  | .hbm, ⟨51, _⟩ => ⟨S_, .i32⟩
  | .hbm, ⟨52, _⟩ => ⟨S1x4, .i32⟩
  | .hbm, ⟨53, _⟩ => ⟨S1x4, .i1⟩
  | .hbm, ⟨54, _⟩ => ⟨S_, .i32⟩
  | .hbm, ⟨55, _⟩ => ⟨S1x4, .i32⟩
  | .hbm, ⟨56, _⟩ => ⟨S1x4, .i32⟩
  | .hbm, ⟨57, _⟩ => ⟨S1x4, .i32⟩
  | .hbm, ⟨58, _⟩ => ⟨S_, .i32⟩
  | .hbm, ⟨59, _⟩ => ⟨S262144x4, .i32⟩
  | .hbm, ⟨60, _⟩ => ⟨S262144x4, .i1⟩
  | .hbm, ⟨61, _⟩ => ⟨S_, .i32⟩
  | .hbm, ⟨62, _⟩ => ⟨S262144x4, .i32⟩
  | .hbm, ⟨63, _⟩ => ⟨S262144x4, .i32⟩
  | .hbm, ⟨64, _⟩ => ⟨S262144x4, .i32⟩
  | .hbm, ⟨65, _⟩ => ⟨S262144x4, .i32⟩
  | .hbm, ⟨66, _⟩ => ⟨S262144x4x1, .i32⟩
  | .hbm, ⟨67, _⟩ => ⟨S262144x4x1, .i32⟩
  | .hbm, ⟨68, _⟩ => ⟨S262144x4x2, .i32⟩
  | .hbm, ⟨69, _⟩ => ⟨S262144x4x256, .f32⟩
  | .hbm, ⟨70, _⟩ => ⟨S_, .i32⟩
  | .hbm, ⟨71, _⟩ => ⟨S262144x4, .i32⟩
  | .hbm, ⟨72, _⟩ => ⟨S262144x4, .i32⟩
  | .hbm, ⟨73, _⟩ => ⟨S_, .i32⟩
  | .hbm, ⟨74, _⟩ => ⟨S1x4, .i32⟩
  | .hbm, ⟨75, _⟩ => ⟨S1x4, .i1⟩
  | .hbm, ⟨76, _⟩ => ⟨S_, .i32⟩
  | .hbm, ⟨77, _⟩ => ⟨S1x4, .i32⟩
  | .hbm, ⟨78, _⟩ => ⟨S1x4, .i32⟩
  | .hbm, ⟨79, _⟩ => ⟨S1x4, .i32⟩
  | .hbm, ⟨80, _⟩ => ⟨S_, .i32⟩
  | .hbm, ⟨81, _⟩ => ⟨S262144x4, .i32⟩
  | .hbm, ⟨82, _⟩ => ⟨S262144x4, .i1⟩
  | .hbm, ⟨83, _⟩ => ⟨S_, .i32⟩
  | .hbm, ⟨84, _⟩ => ⟨S262144x4, .i32⟩
  | .hbm, ⟨85, _⟩ => ⟨S262144x4, .i32⟩
  | .hbm, ⟨86, _⟩ => ⟨S262144x4, .i32⟩
  | .hbm, ⟨87, _⟩ => ⟨S262144x4, .i32⟩
  | .hbm, ⟨88, _⟩ => ⟨S262144x4x1, .i32⟩
  | .hbm, ⟨89, _⟩ => ⟨S262144x4x1, .i32⟩
  | .hbm, ⟨90, _⟩ => ⟨S262144x4x2, .i32⟩
  | .hbm, ⟨91, _⟩ => ⟨S262144x4x256, .f32⟩
  | .hbm, ⟨92, _⟩ => ⟨S_, .f32⟩
  | .hbm, ⟨93, _⟩ => ⟨S262144x4x1, .f32⟩
  | .hbm, ⟨94, _⟩ => ⟨S262144x4x1, .f32⟩
  | .hbm, ⟨95, _⟩ => ⟨S262144x4x256, .f32⟩
  | .hbm, ⟨96, _⟩ => ⟨S262144x4x256, .f32⟩
  | .hbm, ⟨97, _⟩ => ⟨S262144x4x256, .f32⟩
  | .hbm, ⟨98, _⟩ => ⟨S262144x4x256, .f32⟩
  | .hbm, ⟨99, _⟩ => ⟨S262144x4x256, .f32⟩
  | .hbm, ⟨100, _⟩ => ⟨S_, .f32⟩
  | .hbm, ⟨101, _⟩ => ⟨S262144x256, .f32⟩
  | .hbm, ⟨102, _⟩ => ⟨S_, .f32⟩
  | .hbm, ⟨103, _⟩ => ⟨S262144x256, .f32⟩
  | .hbm, ⟨104, _⟩ => ⟨S262144x256, .f32⟩
  | .hbm, ⟨105, _⟩ => ⟨S256x256, .f32⟩
  | .hbm, ⟨106, _⟩ => ⟨S262144x256, .f32⟩
  | .hbm, ⟨107, _⟩ => ⟨S1x256, .f32⟩
  | .hbm, ⟨108, _⟩ => ⟨S262144x256, .f32⟩
  | .hbm, ⟨109, _⟩ => ⟨S262144x256, .f32⟩
  | .hbm, ⟨110, _⟩ => ⟨S_, .f32⟩
  | .hbm, ⟨111, _⟩ => ⟨S262144x256, .f32⟩
  | .hbm, ⟨112, _⟩ => ⟨S262144x256, .f32⟩
  | .hbm, ⟨113, _⟩ => ⟨S262144x256, .f32⟩
  | .hbm, ⟨114, _⟩ => ⟨S256x3, .f32⟩
  | .hbm, ⟨115, _⟩ => ⟨S262144x3, .f32⟩
  | .hbm, ⟨116, _⟩ => ⟨S1x3, .f32⟩
  | .hbm, ⟨117, _⟩ => ⟨S262144x3, .f32⟩
  | .hbm, ⟨118, _⟩ => ⟨S262144x3, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_v15 : Ref sig .tc := ⟨.hbm, 39, rfl⟩
abbrev main_v16 : Ref sig .tc := ⟨.hbm, 40, rfl⟩
abbrev main_cst_7 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c : Ref sig .tc := ⟨.hbm, 51, rfl⟩
abbrev main_v26 : Ref sig .tc := ⟨.hbm, 52, rfl⟩
abbrev main_v27 : Ref sig .tc := ⟨.hbm, 53, rfl⟩
abbrev main_c_8 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_9 : Ref sig .tc := ⟨.hbm, 58, rfl⟩
abbrev main_v31 : Ref sig .tc := ⟨.hbm, 59, rfl⟩
abbrev main_v32 : Ref sig .tc := ⟨.hbm, 60, rfl⟩
abbrev main_c_10 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_11 : Ref sig .tc := ⟨.hbm, 70, rfl⟩
abbrev main_v41 : Ref sig .tc := ⟨.hbm, 71, rfl⟩
abbrev main_v42 : Ref sig .tc := ⟨.hbm, 72, rfl⟩
abbrev main_c_12 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_14 : Ref sig .tc := ⟨.hbm, 80, rfl⟩
abbrev main_v48 : Ref sig .tc := ⟨.hbm, 81, rfl⟩
abbrev main_v49 : Ref sig .tc := ⟨.hbm, 82, rfl⟩
abbrev main_c_15 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_16 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_17 : Ref sig .tc := ⟨.hbm, 100, rfl⟩
abbrev main_v65 : Ref sig .tc := ⟨.hbm, 101, rfl⟩
abbrev main_cst_18 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_19 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩

abbrev nD : Nat := 1
abbrev τ : Topo := Topo.v7x

variable {F : FTy → Type} [FloatOps F]

class Facts₀ : Prop where
  bcast_S_S262144x2 : S_.BroadcastsInDim S262144x2 (![] : Fin 0 → Fin S262144x2.rank)
  slices_S262144x2_S262144x1_0_0 : S262144x2.Slices ![0, 0] S262144x1
  slices_S262144x2_S262144x1_0_1 : S262144x2.Slices ![0, 1] S262144x1
  bcast_S_S262144x1 : S_.BroadcastsInDim S262144x1 (![] : Fin 0 → Fin S262144x1.rank)
  concatenates_S262144x2_S262144x1_S262144x1_S262144x4_d1 : Shape.Concatenates [S262144x2, S262144x1, S262144x1] S262144x4 1
  bcast_S_S262144x4 : S_.BroadcastsInDim S262144x4 (![] : Fin 0 → Fin S262144x4.rank)
  bcast_S262144x4_S262144x4x1_0_1 : S262144x4.BroadcastsInDim S262144x4x1 (![0, 1] : Fin 2 → Fin S262144x4x1.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S262144x4_0_1 : S1x4.BroadcastsInDim S262144x4 (![0, 1] : Fin 2 → Fin S262144x4.rank)
  concatenates_S262144x4x1_S262144x4x1_S262144x4x2_d2 : Shape.Concatenates [S262144x4x1, S262144x4x1] S262144x4x2 2
  bcast_S_S262144x4x1 : S_.BroadcastsInDim S262144x4x1 (![] : Fin 0 → Fin S262144x4x1.rank)
  bcast_S262144x4x1_S262144x4x256_0_1_2 : S262144x4x1.BroadcastsInDim S262144x4x256 (![0, 1, 2] : Fin 3 → Fin S262144x4x256.rank)
  reducesTo_S262144x4x256_S262144x256_d1 : S262144x4x256.ReducesTo [1] S262144x256
  h_S_ : 0 < S_.numel
  bcast_S_S262144x256 : S_.BroadcastsInDim S262144x256 (![] : Fin 0 → Fin S262144x256.rank)
  transposes_S256x256_S256x256_1_0 : S256x256.Transposes [1, 0] S256x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  transposes_S3x256_S256x3_1_0 : S3x256.Transposes [1, 0] S256x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  gather_S4x512x256_S262144x4x2_S262144x4x256_2_01_n_n_01_2_11256_wf : GatherDims.WF S4x512x256 S262144x4x2 S262144x4x256 [2] [0, 1] [] [0, 1] [] 2 ![1, 1, 256]
  dot_S262144x256_S256x256_S262144x256_1_0_0_1_n_n_wf : DotDims.WF S262144x256 S256x256 S262144x256 [1] [0] [0] [1] [] []
  dot_S262144x256_S256x3_S262144x3_1_0_0_1_n_n_wf : DotDims.WF S262144x256 S256x3 S262144x3 [1] [0] [0] [1] [] []

variable [Facts₀]

def gather_S4x512x256_S262144x4x2_S262144x4x256_2_01_n_n_01_2_11256 : GatherDims S4x512x256 S262144x4x2 S262144x4x256 where
  offsetDims := [2]
  collapsedSliceDims := [0, 1]
  operandBatchingDims := []
  startIndicesBatchingDims := []
  startIndexMap := [0, 1]
  indexVectorDim := 2
  sliceSizes := ![1, 1, 256]
  wf := gather_S4x512x256_S262144x4x2_S262144x4x256_2_01_n_n_01_2_11256_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x3_S262144x3_1_0_0_1_n_n : DotDims S262144x256 S256x3 S262144x3 where
  lhsContracting := [1]
  rhsContracting := [0]
  lhsNonContracting := [0]
  rhsNonContracting := [1]
  lhsBatch := []
  rhsBatch := []
  wf := dot_S262144x256_S256x3_S262144x3_1_0_0_1_n_n_wf

class Facts : Prop extends Facts₀ where

variable [Facts]
-- ==== Proof.Spec.lean ====
/-
  The function both programs compute, element by element, over the extended reals.

  A query point `n` has two coordinates, each clamped to `[-1, 1]`; from them four axis coordinates are formed
  (`c0`, `c1`, `(c0 + c1) / 2`, `(c0 - c1) / 2`); each is clamped to `[-1, 0.999]` and mapped affinely to a
  position `t` on the lattice `0 … 511` of its axis' table.  The embedding of the point is the mean over the four
  axes of the table rows interpolated linearly at `t`.  It is written here in the two ways the programs spell it:
  `embTent` sums every lattice row against the tent weight `max 0 (1 - |j - t|)` and multiplies by a quarter;
  `embLerp` takes the two neighbours `⌊t⌋`, `⌊t⌋ + 1` with weights `1 - (t - ⌊t⌋)` and `t - ⌊t⌋` and divides by
  four.  The decoder (a linear layer, a sine of thirty times it, a second linear layer) is the same in both.
-/
import Idealize.ShloMosaic.PureOps.Ideal
import Idealize.ShloMosaic.Lib.ValueIdx

noncomputable section

open scoped BigOperators

namespace Cert.Spec

open Idealize.ShloMosaic Idealize.ShloMosaic.ValueIdx

/-! ## The float constants the programs spell, as the extended reals they denote -/

abbrev cNeg1 : EReal := Ideal.ofBits .f32 0xBF800000#32      -- -1
abbrev cOne : EReal := Ideal.ofBits .f32 0x3F800000#32       -- 1
abbrev cHalf : EReal := Ideal.ofBits .f32 0x3F000000#32      -- 1/2
abbrev cTop : EReal := Ideal.ofBits .f32 0x3F7FBE77#32       -- 16760439 / 16777216, the float nearest 0.999
abbrev c511 : EReal := Ideal.ofBits .f32 0x43FF8000#32       -- 511
abbrev cZero : EReal := Ideal.ofBits .f32 0x00000000#32      -- 0
abbrev cQuarter : EReal := Ideal.ofBits .f32 0x3E800000#32   -- 1/4
abbrev cFour : EReal := Ideal.ofBits .f32 0x40800000#32      -- 4
abbrev c30 : EReal := Ideal.ofBits .f32 0x41F00000#32        -- 30

/-! ## The argument arrays -/

abbrev Coords := (⟨2, ![262144, 2]⟩ : Shape).Idx → EReal
abbrev Tables := (⟨3, ![4, 512, 256]⟩ : Shape).Idx → EReal
abbrev Mat1 := (⟨2, ![256, 256]⟩ : Shape).Idx → EReal
abbrev Bias1 := (⟨1, ![256]⟩ : Shape).Idx → EReal
abbrev Mat2 := (⟨2, ![3, 256]⟩ : Shape).Idx → EReal
abbrev Bias2 := (⟨1, ![3]⟩ : Shape).Idx → EReal

/-! ## Positions on the lattice -/

/-- A coordinate clamped to `[-1, 1]`. -/
def clip1 (x : EReal) : EReal := min cOne (max cNeg1 x)

/-- The four axis coordinates of a point with clamped coordinates `c0`, `c1`. -/
def axisVal (c0 c1 : EReal) : Fin 4 → EReal
  | ⟨0, _⟩ => c0
  | ⟨1, _⟩ => c1
  | ⟨2, _⟩ => (c0 + c1) * cHalf
  | ⟨3, _⟩ => (c0 - c1) * cHalf

/-- An axis coordinate clamped to `[-1, 0.999]` and mapped to a position in `[0, 511)`. -/
def pos (v : EReal) : EReal := (cHalf * min cTop (max cNeg1 v) + cHalf) * c511

/-- The position of point `n` on axis `a`. -/
def tpos (X : Coords) (n : Fin 262144) (a : Fin 4) : EReal :=
  pos (axisVal (clip1 (X (ix2 n 0))) (clip1 (X (ix2 n 1))) a)

/-! ## The embedding as a tent-weighted sum over every lattice row -/

/-- Lattice row `j` as a float: its 32-bit word read as a signed integer. -/
def colF (j : Fin 512) : EReal := (((BitVec.ofNat 32 j.val).toInt : ℝ) : EReal)

/-- The tent weight of lattice row `j` for the position `t`: `max 0 (1 - |j - t|)`. -/
def tent (t : EReal) (j : Fin 512) : EReal := max cZero (cOne - max (colF j - t) (-(colF j - t)))

/-- The axis of entry `k` of the flattened (axis, row) index. -/
def axOf (k : Fin 2048) : Fin 4 := ⟨k.val / 512, by have := k.isLt; omega⟩
/-- The row of entry `k` of the flattened (axis, row) index. -/
def rowOf (k : Fin 2048) : Fin 512 := ⟨k.val % 512, Nat.mod_lt _ (by norm_num)⟩

/-- The embedding of point `n`, feature `e`: every (axis, row) pair's tent weight times the table entry, summed, times a quarter. -/
def embTent (X : Coords) (T : Tables) (n : Fin 262144) (e : Fin 256) : EReal :=
  (∑ k : Fin 2048, tent (tpos X n (axOf k)) (rowOf k) * T (ix3 (axOf k) (rowOf k) e)) * cQuarter

/-! ## The embedding as a linear interpolation between two neighbours -/

/-- An integer index below zero wraps around by the extent `sz` (the indexing convention of the reference). -/
def wrap (sz b : BitVec 32) : BitVec 32 := Scalar.select (IntOp.cmpi .slt b 0#32) (IntOp.addi b sz) b

/-- The table axis selected for axis `a`: its index wrapped, then clamped into `[0, 3]`. -/
def axIdx (a : Fin 4) : Fin 4 := ⟨min (wrap 4#32 (BitVec.ofNat 32 a.val)).toInt.toNat 3, by omega⟩

/-- The table row selected by the integer `b`: wrapped, then clamped into `[0, 511]`. -/
def rowIdx (b : BitVec 32) : Fin 512 := ⟨min (wrap 512#32 b).toInt.toNat 511, by omega⟩

/-- The integer part of the position of point `n` on axis `a`, as a 32-bit integer. -/
def cell (X : Coords) (n : Fin 262144) (a : Fin 4) : BitVec 32 :=
  Ideal.fptosi 32 (Ideal.liftRound Int.floor (tpos X n a))

/-- The fractional part of that position. -/
def frac (X : Coords) (n : Fin 262144) (a : Fin 4) : EReal :=
  tpos X n a - (((cell X n a).toInt : ℝ) : EReal)

/-- The embedding of point `n`, feature `e`: per axis the two neighbouring rows interpolated, summed from zero, divided by four. -/
def embLerp (X : Coords) (T : Tables) (n : Fin 262144) (e : Fin 256) : EReal :=
  Ideal.div (cZero + ∑ a : Fin 4,
      ((cOne - frac X n a) * T (ix3 (axIdx a) (rowIdx (cell X n a)) e)
        + frac X n a * T (ix3 (axIdx a) (rowIdx (IntOp.addi (cell X n a) 1#32)) e))) cFour

/-! ## The decoder -/

/-- The hidden activation `j` of point `n` from an embedding `E`: the sine of thirty times (row `j` of `W1` · `E n` + `b1 j`). -/
def hidden (E : Fin 262144 → Fin 256 → EReal) (W1 : Mat1) (b1 : Bias1) (n : Fin 262144) (j : Fin 256) : EReal :=
  Ideal.sin (c30 * ((∑ e : Fin 256, E n e * W1 (ix2 j e)) + b1 (ix1 j)))

/-- Output `o` of point `n`: row `o` of `W2` · the hidden activations + `b2 o`. -/
def decode (E : Fin 262144 → Fin 256 → EReal) (W1 : Mat1) (b1 : Bias1) (W2 : Mat2) (b2 : Bias2)
    (n : Fin 262144) (o : Fin 3) : EReal :=
  (∑ j : Fin 256, hidden E W1 b1 n j * W2 (ix2 o j)) + b2 (ix1 o)

/-- The whole result array, from the tent-weighted embedding. -/
def result (X : Coords) (T : Tables) (W1 : Mat1) (b1 : Bias1) (W2 : Mat2) (b2 : Bias2) :
    (⟨2, ![262144, 3]⟩ : Shape).Idx → EReal :=
  fun i => decode (embTent X T) W1 b1 W2 b2 (i 0) (i 1)

end Cert.Spec

end
-- ==== Proof.Interp.lean ====
/-
  Linear interpolation on an integer lattice as a tent-weighted sum.

  For a real position `t` the tent weight of the lattice point `j` is `max 0 (1 - |j - t|)`.  It is
  `1 - (t - ⌊t⌋)` at `j = ⌊t⌋`, `t - ⌊t⌋` at `j = ⌊t⌋ + 1` and `0` at every other lattice point, so a sum of
  lattice values against these weights is the linear interpolation between the two neighbours of `t`.
  Every position here is `(1/2 · c + 1/2) · 511` with `c` clamped to `[-1, 16760439/16777216]`, hence a real in
  `[0, 511)`: its floor `k` is an integer in `[0, 510]`, the conversion to a 32-bit integer and back is exact,
  neither `k` nor `k + 1` is negative (no wrap-around) and both are at most `511` (no clamping).  The flattened
  sum over `2048 = 4 · 512` (axis, row) pairs is the double sum over axes and rows, and dividing by four is
  multiplying by a quarter.
-/
import proofs.«104324_j4406636446001_2_alg».proof.Proof.Spec
import Mathlib

noncomputable section

open scoped BigOperators

namespace Cert.Spec

open Idealize.ShloMosaic Idealize.ShloMosaic.ValueIdx

/-! ## The constants as reals -/

theorem cNeg1_eq : cNeg1 = ((-1 : ℝ) : EReal) := by
  simp [Ideal.ofBits, Ideal.ieee, -EReal.coe_mul]; norm_num
theorem cOne_eq : cOne = ((1 : ℝ) : EReal) := by
  simp [Ideal.ofBits, Ideal.ieee, -EReal.coe_mul]; norm_num
theorem cHalf_eq : cHalf = ((1 / 2 : ℝ) : EReal) := by
  simp [Ideal.ofBits, Ideal.ieee, -EReal.coe_mul]; norm_num
theorem cTop_eq : cTop = ((16760439 / 16777216 : ℝ) : EReal) := by
  simp [Ideal.ofBits, Ideal.ieee, -EReal.coe_mul]; norm_num
theorem c511_eq : c511 = ((511 : ℝ) : EReal) := by
  simp [Ideal.ofBits, Ideal.ieee, -EReal.coe_mul]; norm_num
theorem cZero_eq : cZero = ((0 : ℝ) : EReal) := by
  simp [Ideal.ofBits, Ideal.ieee]
theorem cQuarter_eq : cQuarter = ((1 / 4 : ℝ) : EReal) := by
  simp [Ideal.ofBits, Ideal.ieee, -EReal.coe_mul]; norm_num
theorem cFour_eq : cFour = ((4 : ℝ) : EReal) := by
  simp [Ideal.ofBits, Ideal.ieee, -EReal.coe_mul]; norm_num

/-! ## Every position is a real in `[0, 511)` -/

theorem coe_max' (a b : ℝ) : ((max a b : ℝ) : EReal) = max (a : EReal) (b : EReal) :=
  EReal.coe_strictMono.monotone.map_max
theorem coe_min' (a b : ℝ) : ((min a b : ℝ) : EReal) = min (a : EReal) (b : EReal) :=
  EReal.coe_strictMono.monotone.map_min

/-- Whatever `v` is, clamping it to `[-1, 16760439/16777216]` gives a real in that interval. -/
theorem clamp_real (v : EReal) :
    ∃ c : ℝ, -1 ≤ c ∧ c ≤ 16760439 / 16777216 ∧ min cTop (max cNeg1 v) = (c : EReal) := by
  rw [cTop_eq, cNeg1_eq]
  induction v using EReal.rec with
  | bot =>
    refine ⟨-1, le_refl _, by norm_num, ?_⟩
    rw [max_eq_left bot_le, ← coe_min']
    congr 1
    exact min_eq_right (by norm_num)
  | coe r =>
    refine ⟨min (16760439 / 16777216) (max (-1) r), ?_, min_le_left _ _, ?_⟩
    · exact le_min (by norm_num) (le_max_left _ _)
    · rw [coe_min', coe_max']
  | top =>
    refine ⟨16760439 / 16777216, by norm_num, le_refl _, ?_⟩
    rw [max_eq_right le_top, min_eq_left le_top]

/-- Whatever `v` is, its position is a real in `[0, 511)`. -/
theorem pos_real (v : EReal) : ∃ r : ℝ, 0 ≤ r ∧ r < 511 ∧ pos v = (r : EReal) := by
  obtain ⟨c, h1, h2, hc⟩ := clamp_real v
  refine ⟨(1 / 2 * c + 1 / 2) * 511, ?_, ?_, ?_⟩
  · nlinarith
  · nlinarith
  · rw [pos, hc, cHalf_eq, c511_eq, EReal.coe_mul, EReal.coe_add, EReal.coe_mul]

theorem tpos_real (X : Coords) (n : Fin 262144) (a : Fin 4) :
    ∃ r : ℝ, 0 ≤ r ∧ r < 511 ∧ tpos X n a = (r : EReal) := pos_real _

/-! ## Small 32-bit integers -/

theorem toInt_ofNat_small (m : ℕ) (h : m ≤ 511) : (BitVec.ofNat 32 m).toInt = (m : ℤ) := by
  rw [BitVec.toInt_eq_toNat_cond, BitVec.toNat_ofNat]
  have : m % 2 ^ 32 = m := Nat.mod_eq_of_lt (by omega)
  rw [this]
  split_ifs with h' <;> omega

/-- An index that is not negative is not wrapped. -/
theorem wrap_of_nonneg (sz b : BitVec 32) (h : 0 ≤ b.toInt) : wrap sz b = b := by
  have hs : b.slt 0#32 = false := by
    rw [BitVec.slt]
    simpa using h
  simp [wrap, IntOp.cmpi, Scalar.select, hs]

theorem rowIdx_small (m : ℕ) (h : m ≤ 511) : rowIdx (BitVec.ofNat 32 m) = ⟨m, by omega⟩ := by
  have ht := toInt_ofNat_small m h
  apply Fin.ext
  simp only [rowIdx]
  rw [wrap_of_nonneg _ _ (by rw [ht]; exact Int.natCast_nonneg m), ht, Int.toNat_natCast]
  exact min_eq_left h

theorem axIdx_eq (a : Fin 4) : axIdx a = a := by
  have ht := toInt_ofNat_small a.val (by have := a.isLt; omega)
  apply Fin.ext
  simp only [axIdx]
  rw [wrap_of_nonneg _ _ (by rw [ht]; exact Int.natCast_nonneg _), ht, Int.toNat_natCast]
  exact min_eq_left (by have := a.isLt; omega)

theorem colF_eq (j : Fin 512) : colF j = ((j.val : ℝ) : EReal) := by
  rw [colF, toInt_ofNat_small j.val (by have := j.isLt; omega)]
  norm_cast

/-! ## The integer part of a position -/

/-- For a real `r` in `[0, 511)` the position rounded down and converted to a 32-bit integer is the natural
    number `m = ⌊r⌋ ≤ 510`: the conversion neither rounds nor clamps. -/
theorem cell_real (r : ℝ) (h0 : 0 ≤ r) (h1 : r < 511) :
    ∃ m : ℕ, m ≤ 510 ∧ (m : ℝ) ≤ r ∧ r < (m : ℝ) + 1 ∧
      Ideal.fptosi 32 (Ideal.liftRound Int.floor (r : EReal)) = BitVec.ofNat 32 m := by
  have hk0 : 0 ≤ ⌊r⌋ := Int.floor_nonneg.mpr h0
  have hk1 : ⌊r⌋ < 511 := Int.floor_lt.mpr (by exact_mod_cast h1)
  obtain ⟨m, hm⟩ := Int.eq_ofNat_of_zero_le hk0
  have hle := Int.floor_le r
  have hlt := Int.lt_floor_add_one r
  rw [hm, Int.cast_natCast] at hle hlt
  refine ⟨m, by omega, hle, hlt, ?_⟩
  rw [Ideal.liftRound_coe, Ideal.fptosi, Ideal.toIntClamped_coe, Int.floor_intCast, Int.ceil_intCast, ite_self, hm]
  have hmm : max (-((2 ^ (32 - 1) : ℕ) : ℤ)) (min (((2 ^ (32 - 1) : ℕ) : ℤ) - 1) (m : ℤ)) = (m : ℤ) := by
    rw [min_eq_right (by norm_num <;> omega), max_eq_right (by norm_num <;> omega)]
  rw [hmm, BitVec.ofInt_natCast]

/-! ## The tent weights -/

theorem tent_real (r : ℝ) (j : Fin 512) :
    tent (r : EReal) j = ((max 0 (1 - |(j.val : ℝ) - r|) : ℝ) : EReal) := by
  rw [tent, colF_eq, cZero_eq, cOne_eq, abs_eq_max_neg, coe_max', EReal.coe_sub, coe_max', EReal.coe_neg,
    EReal.coe_sub]

/-- The tent weights of a position `r` with `m ≤ r < m + 1` vanish off the two neighbours `m`, `m + 1`, where they
    are `1 - (r - m)` and `r - m`: the weighted sum of any lattice values is their linear interpolation. -/
theorem tent_sum (r : ℝ) (m : ℕ) (hm : m ≤ 510) (h0 : (m : ℝ) ≤ r) (h1 : r < (m : ℝ) + 1) (f : Fin 512 → EReal) :
    ∑ j : Fin 512, tent (r : EReal) j * f j
      = ((1 - (r - m) : ℝ) : EReal) * f ⟨m, by omega⟩ + ((r - m : ℝ) : EReal) * f ⟨m + 1, by omega⟩ := by
  rw [Finset.sum_eq_add (⟨m, by omega⟩ : Fin 512) ⟨m + 1, by omega⟩ (by simp [Fin.ext_iff]) ?_ (by simp) (by simp)]
  · congr 2
    · rw [tent_real]
      congr 1
      show max 0 (1 - |(m : ℝ) - r|) = 1 - (r - m)
      rw [abs_of_nonpos (by linarith), max_eq_right (by linarith)]
      ring
    · rw [tent_real]
      congr 1
      show max 0 (1 - |((m + 1 : ℕ) : ℝ) - r|) = r - m
      push_cast
      rw [abs_of_nonneg (by linarith), max_eq_right (by linarith)]
      ring
  · rintro j - ⟨hj1, hj2⟩
    rw [tent_real]
    have hz : max 0 (1 - |(j.val : ℝ) - r|) = 0 := by
      apply max_eq_left
      have hjm : j.val + 1 ≤ m ∨ m + 1 + 1 ≤ j.val := by
        have h1' : j.val ≠ m := fun h => hj1 (Fin.ext h)
        have h2' : j.val ≠ m + 1 := fun h => hj2 (Fin.ext h)
        omega
      rcases hjm with h | h
      · have h' : (j.val : ℝ) + 1 ≤ m := by exact_mod_cast h
        have h'' := neg_le_abs ((j.val : ℝ) - r)
        linarith
      · have h' : (m : ℝ) + 1 + 1 ≤ j.val := by exact_mod_cast h
        have h'' := le_abs_self ((j.val : ℝ) - r)
        linarith
    rw [hz, EReal.coe_zero, zero_mul]

/-! ## The flattened (axis, row) sum -/

theorem sum_flat (F : Fin 4 → Fin 512 → EReal) :
    ∑ k : Fin 2048, F (axOf k) (rowOf k) = ∑ a : Fin 4, ∑ j : Fin 512, F a j := by
  rw [← Fintype.sum_prod_type']
  symm
  refine Fintype.sum_equiv (finProdFinEquiv (m := 4) (n := 512)) _ _ ?_
  rintro ⟨a, j⟩
  have ha : axOf (finProdFinEquiv (a, j)) = a := by
    apply Fin.ext
    simp [axOf, finProdFinEquiv] <;> omega
  have hj : rowOf (finProdFinEquiv (a, j)) = j := by
    apply Fin.ext
    simp [rowOf, finProdFinEquiv] <;> omega
  rw [ha, hj]

/-! ## The two spellings of the embedding agree -/

/-- On one axis: the two neighbours with their weights are the whole tent-weighted row sum. -/
theorem lerp_axis (X : Coords) (T : Tables) (n : Fin 262144) (e : Fin 256) (a : Fin 4) :
    (cOne - frac X n a) * T (ix3 (axIdx a) (rowIdx (cell X n a)) e)
      + frac X n a * T (ix3 (axIdx a) (rowIdx (IntOp.addi (cell X n a) 1#32)) e)
    = ∑ j : Fin 512, tent (tpos X n a) j * T (ix3 a j e) := by
  obtain ⟨r, h0, h1, hr⟩ := tpos_real X n a
  obtain ⟨m, hm, hmr, hrm, hc⟩ := cell_real r h0 h1
  have hcell : cell X n a = BitVec.ofNat 32 m := by rw [cell, hr, hc]
  have hfrac : frac X n a = ((r - m : ℝ) : EReal) := by
    rw [frac, hcell, hr, toInt_ofNat_small m (by omega), Int.cast_natCast, EReal.coe_sub]
  have hadd : IntOp.addi (BitVec.ofNat 32 m) 1#32 = BitVec.ofNat 32 (m + 1) := by
    rw [IntOp.addi, BitVec.ofNat_add]
  rw [hr, tent_sum r m hm hmr hrm (fun j => T (ix3 a j e)), axIdx_eq, hfrac, hcell, hadd,
    rowIdx_small m (by omega), rowIdx_small (m + 1) (by omega), cOne_eq, ← EReal.coe_sub]

theorem embLerp_eq_embTent (X : Coords) (T : Tables) : embLerp X T = embTent X T := by
  funext n e
  rw [embLerp, embTent, cFour_eq, Ideal.div_coe (by norm_num : (4 : ℝ) ≠ 0), cZero_eq, EReal.coe_zero, zero_add,
    cQuarter_eq, sum_flat (fun a j => tent (tpos X n a) j * T (ix3 a j e))]
  congr 1
  exact Finset.sum_congr rfl (fun a _ => lerp_axis X T n e a)

end Cert.Spec

end
-- ==== Proof.RefGather.lean ====
/-
  The two shape operations of the reference that select elements by position or by value, read at an index.

  Joining arrays along an axis: an element of the joined array is the element of the piece whose span holds its
  coordinate on that axis.  Gathering table rows: result element `(n, a, e)` of the gather of a table
  `[4, 512, 256]` at an integer array `[N, 4, 2]` is the table at axis `idx[n, a, 0]` and row `idx[n, a, 1]`, each
  read as a signed integer and clamped into the axis' range, and at feature `e`.
-/
import proofs.«104324_j4406636446001_2_alg».proof.Proof.Gen.ReferenceIdeal.Read

noncomputable section

open scoped BigOperators

namespace Cert.ReferenceIdeal.RefValue

open Cert.ReferenceIdeal Cert.ReferenceIdeal.Gen Idealize.ShloMosaic Idealize.ShloMosaic.ValueIdx

variable {α : Type}

/-! ## Four columns from a pair and two single columns -/

/-- Column 0 or 1 of the joined array is that column of the first piece. -/
theorem cat4_apply_pair (x0 : S262144x2.Idx → α) (x1 x2 : S262144x1.Idx → α)
    (h : Shape.Concatenates [S262144x2, S262144x1, S262144x1] S262144x4 1) (n : Fin 262144) (b : Fin 2) :
    concatenate S262144x4 1 [⟨S262144x2, x0⟩, ⟨S262144x1, x1⟩, ⟨S262144x1, x2⟩] h (ix2 n (⟨b.val, by omega⟩ : Fin 4))
      = x0 (ix2 n b) := by
  refine concatenate_apply_piece (1 : Fin S262144x4.rank) [⟨S262144x2, x0⟩, ⟨S262144x1, x1⟩, ⟨S262144x1, x2⟩] h _ 0
    (show 0 < 3 by omega) S262144x2 x0 rfl rfl 0 rfl (ix2 n b) ?_ ?_
  · intro c hc
    match c with
    | ⟨0, _⟩ => rfl
    | ⟨1, _⟩ => exact absurd rfl hc
  · show 0 + b.val = b.val
    omega

/-- Column 2 of the joined array is the second piece's one column. -/
theorem cat4_apply_2 (x0 : S262144x2.Idx → α) (x1 x2 : S262144x1.Idx → α)
    (h : Shape.Concatenates [S262144x2, S262144x1, S262144x1] S262144x4 1) (n : Fin 262144) :
    concatenate S262144x4 1 [⟨S262144x2, x0⟩, ⟨S262144x1, x1⟩, ⟨S262144x1, x2⟩] h (ix2 n (2 : Fin 4))
      = x1 (ix2 n (0 : Fin 1)) := by
  refine concatenate_apply_piece (1 : Fin S262144x4.rank) [⟨S262144x2, x0⟩, ⟨S262144x1, x1⟩, ⟨S262144x1, x2⟩] h _ 1
    (show 1 < 3 by omega) S262144x1 x1 rfl rfl 2 rfl (ix2 n (0 : Fin 1)) ?_ ?_
  · intro c hc
    match c with
    | ⟨0, _⟩ => rfl
    | ⟨1, _⟩ => exact absurd rfl hc
  · rfl

/-- Column 3 of the joined array is the third piece's one column. -/
theorem cat4_apply_3 (x0 : S262144x2.Idx → α) (x1 x2 : S262144x1.Idx → α)
    (h : Shape.Concatenates [S262144x2, S262144x1, S262144x1] S262144x4 1) (n : Fin 262144) :
    concatenate S262144x4 1 [⟨S262144x2, x0⟩, ⟨S262144x1, x1⟩, ⟨S262144x1, x2⟩] h (ix2 n (3 : Fin 4))
      = x2 (ix2 n (0 : Fin 1)) := by
  refine concatenate_apply_piece (1 : Fin S262144x4.rank) [⟨S262144x2, x0⟩, ⟨S262144x1, x1⟩, ⟨S262144x1, x2⟩] h _ 2
    (show 2 < 3 by omega) S262144x1 x2 rfl rfl 3 rfl (ix2 n (0 : Fin 1)) ?_ ?_
  · intro c hc
    match c with
    | ⟨0, _⟩ => rfl
    | ⟨1, _⟩ => exact absurd rfl hc
  · rfl

/-! ## Index pairs from two single columns -/

/-- Entry 0 of the joined index pair is the first piece's entry. -/
theorem cat2_apply_0 {β : Type} (x0 x1 : S262144x4x1.Idx → β)
    (h : Shape.Concatenates [S262144x4x1, S262144x4x1] S262144x4x2 2) (n : Fin 262144) (a : Fin 4) :
    concatenate S262144x4x2 2 [⟨S262144x4x1, x0⟩, ⟨S262144x4x1, x1⟩] h (ix3 n a (0 : Fin 2))
      = x0 (ix3 n a (0 : Fin 1)) := by
  refine concatenate_pair_apply_left (2 : Fin S262144x4x2.rank) x0 x1 h _ rfl (ix3 n a (0 : Fin 1)) ?_
  intro c
  match c with
  | ⟨0, _⟩ => rfl
  | ⟨1, _⟩ => rfl
  | ⟨2, _⟩ => rfl

/-- Entry 1 of the joined index pair is the second piece's entry. -/
theorem cat2_apply_1 {β : Type} (x0 x1 : S262144x4x1.Idx → β)
    (h : Shape.Concatenates [S262144x4x1, S262144x4x1] S262144x4x2 2) (n : Fin 262144) (a : Fin 4) :
    concatenate S262144x4x2 2 [⟨S262144x4x1, x0⟩, ⟨S262144x4x1, x1⟩] h (ix3 n a (1 : Fin 2))
      = x1 (ix3 n a (0 : Fin 1)) := by
  refine concatenate_pair_apply_right (2 : Fin S262144x4x2.rank) x0 x1 h _ rfl rfl (ix3 n a (0 : Fin 1)) ?_ ?_
  · intro c hc
    match c with
    | ⟨0, _⟩ => rfl
    | ⟨1, _⟩ => rfl
    | ⟨2, _⟩ => exact absurd rfl hc
  · rfl

/-! ## The gather of table rows -/

/-- The gather's dimension numbers: operand axes 0 and 1 are indexed by the two entries of an index pair and
    collapsed; operand axis 2 is copied whole into result axis 2. -/
local notation "GD" => gather_S4x512x256_S262144x4x2_S262144x4x256_2_01_n_n_01_2_11256

/-- Result element `(n, a, e)` of the gather is the table at the axis and the row the index pair `(n, a)` names, each
    read signed and clamped into its range, at feature `e`. -/
theorem gather_rows_apply {w : Nat} (x : S4x512x256.Idx → α) (idx : IVec S262144x4x2 w)
    (n : Fin 262144) (a : Fin 4) (e : Fin 256) :
    Host.gather GD x idx (ix3 n a e)
      = x (ix3 (⟨min (idx (ix3 n a (0 : Fin 2))).toInt.toNat 3, by omega⟩ : Fin 4)
            (⟨min (idx (ix3 n a (1 : Fin 2))).toInt.toNat 511, by omega⟩ : Fin 512) e) := by
  unfold Host.gather
  refine congrArg x ?_
  funext b
  refine Fin.ext ?_
  show (GD).start (ix3 n a e) idx b + (GD).batchCoord (ix3 n a e) b + (GD).offCoord (ix3 n a e) b = _
  rw [GatherDims.batchCoord_eq_zero _ _ _ List.not_mem_nil, Nat.add_zero]
  match b with
  | ⟨0, _⟩ =>
    rw [GatherDims.offCoord_eq_zero _ _ _ (fun h => ((GatherDims.mem_sKept _ _).mp h).1 (by decide +revert)), Nat.add_zero]
    unfold GatherDims.start
    rw [dif_pos (show (⟨0, by decide⟩ : Fin S4x512x256.rank) ∈ (GD).startIndexMap by decide)]
    have hsi : (GD).siIdx (ix3 n a e) ⟨List.idxOf (⟨0, by decide⟩ : Fin S4x512x256.rank) (GD).startIndexMap,
        List.idxOf_lt_length_iff.2 (by decide)⟩ = ix3 n a (0 : Fin 2) := by
      funext c; refine Fin.ext ?_
      match c with
      | ⟨0, _⟩ => rfl
      | ⟨1, _⟩ => rfl
      | ⟨2, _⟩ => rfl
    rw [hsi]
    rfl
  | ⟨1, _⟩ =>
    rw [GatherDims.offCoord_eq_zero _ _ _ (fun h => ((GatherDims.mem_sKept _ _).mp h).1 (by decide +revert)), Nat.add_zero]
    unfold GatherDims.start
    rw [dif_pos (show (⟨1, by decide⟩ : Fin S4x512x256.rank) ∈ (GD).startIndexMap by decide)]
    have hsi : (GD).siIdx (ix3 n a e) ⟨List.idxOf (⟨1, by decide⟩ : Fin S4x512x256.rank) (GD).startIndexMap,
        List.idxOf_lt_length_iff.2 (by decide)⟩ = ix3 n a (1 : Fin 2) := by
      funext c; refine Fin.ext ?_
      match c with
      | ⟨0, _⟩ => rfl
      | ⟨1, _⟩ => rfl
      | ⟨2, _⟩ => rfl
    rw [hsi]
    rfl
  | ⟨2, _⟩ =>
    unfold GatherDims.start
    rw [dif_neg (show ¬ (⟨2, by decide⟩ : Fin S4x512x256.rank) ∈ (GD).startIndexMap by decide), Nat.zero_add]
    unfold GatherDims.offCoord
    rw [dif_pos (show (⟨2, by decide⟩ : Fin S4x512x256.rank) ∈ (GD).sKept by decide)]
    rfl

end Cert.ReferenceIdeal.RefValue

end
-- ==== Proof.RefValue.lean ====
/-
  The reference program, stage by stage, is the specification's interpolated embedding followed by its decoder.

  Reading the reference's result at an index `(n, o)` and following its operations backwards: the two coordinates of
  point `n` are clamped to `[-1, 1]`; four axis coordinates are formed from them and joined into one row; each is
  clamped to `[-1, 0.999]` and mapped to a lattice position `t`; the integer part `⌊t⌋` (as a 32-bit integer) and the
  fractional part `t - ⌊t⌋` are taken; for each axis the table rows `⌊t⌋` and `⌊t⌋ + 1` are gathered (the indices
  wrapped and clamped as the gather prescribes) and mixed with weights `1 - (t - ⌊t⌋)` and `t - ⌊t⌋`; the four axes
  are summed from zero and divided by four; the decoder (a linear layer, the sine of thirty times it, a second
  linear layer) follows.  Each lemma below says what one of these intermediate arrays is at an index.
-/
import proofs.«104324_j4406636446001_2_alg».proof.Proof.Spec
import proofs.«104324_j4406636446001_2_alg».proof.Proof.RefGather

noncomputable section

open scoped BigOperators

namespace Cert.ReferenceIdeal.RefValue

open Cert.ReferenceIdeal Cert.ReferenceIdeal.Gen Cert.ReferenceIdeal.Read Idealize.ShloMosaic Idealize.ShloMosaic.ValueIdx

variable (X : (⟨S262144x2, .f32⟩ : BufTy).Contents (Elt Ideal)) (T : (⟨S4x512x256, .f32⟩ : BufTy).Contents (Elt Ideal))
  (W1 : (⟨S256x256, .f32⟩ : BufTy).Contents (Elt Ideal)) (b1 : (⟨S256, .f32⟩ : BufTy).Contents (Elt Ideal))
  (W2 : (⟨S3x256, .f32⟩ : BufTy).Contents (Elt Ideal)) (b2 : (⟨S3, .f32⟩ : BufTy).Contents (Elt Ideal))

/-! ## Where each layout operation reads its operand, in coordinates -/

theorem idx_v1 (n : Fin 262144) : idx_main_v1 (ix2 n (0 : Fin 1)) = ix2 n (0 : Fin 2) :=
  funext fun a => Fin.ext (by match a with | ⟨0, _⟩ => rfl | ⟨1, _⟩ => rfl)
theorem idx_v2 (n : Fin 262144) : idx_main_v2 (ix2 n (0 : Fin 1)) = ix2 n (1 : Fin 2) :=
  funext fun a => Fin.ext (by match a with | ⟨0, _⟩ => rfl | ⟨1, _⟩ => rfl)
theorem idx_v6 (n : Fin 262144) : idx_main_v6 (ix2 n (0 : Fin 1)) = ix2 n (0 : Fin 2) :=
  funext fun a => Fin.ext (by match a with | ⟨0, _⟩ => rfl | ⟨1, _⟩ => rfl)
theorem idx_v7 (n : Fin 262144) : idx_main_v7 (ix2 n (0 : Fin 1)) = ix2 n (1 : Fin 2) :=
  funext fun a => Fin.ext (by match a with | ⟨0, _⟩ => rfl | ⟨1, _⟩ => rfl)
theorem idx_v23 (n : Fin 262144) (a : Fin 4) : idx_main_v23 (ix3 n a (0 : Fin 1)) = ix2 n a :=
  funext fun c => Fin.ext (by match c with | ⟨0, _⟩ => rfl | ⟨1, _⟩ => rfl)
theorem idx_v25 (a : Fin 4) : idx_main_v25 (ix2 (0 : Fin 1) a) = ix1 a :=
  funext fun c => Fin.ext (by match c with | ⟨0, _⟩ => rfl)
theorem idx_v36 (n : Fin 262144) (a : Fin 4) : idx_main_v36 (ix2 n a) = ix2 (0 : Fin 1) a :=
  funext fun c => Fin.ext (by match c with | ⟨0, _⟩ => rfl | ⟨1, _⟩ => rfl)
theorem idx_v37 (n : Fin 262144) (a : Fin 4) : idx_main_v37 (ix3 n a (0 : Fin 1)) = ix2 n a :=
  funext fun c => Fin.ext (by match c with | ⟨0, _⟩ => rfl | ⟨1, _⟩ => rfl)
theorem idx_v38 (n : Fin 262144) (a : Fin 4) : idx_main_v38 (ix3 n a (0 : Fin 1)) = ix2 n a :=
  funext fun c => Fin.ext (by match c with | ⟨0, _⟩ => rfl | ⟨1, _⟩ => rfl)
theorem idx_v53 (n : Fin 262144) (a : Fin 4) : idx_main_v53 (ix2 n a) = ix2 (0 : Fin 1) a :=
  funext fun c => Fin.ext (by match c with | ⟨0, _⟩ => rfl | ⟨1, _⟩ => rfl)
theorem idx_v54 (n : Fin 262144) (a : Fin 4) : idx_main_v54 (ix3 n a (0 : Fin 1)) = ix2 n a :=
  funext fun c => Fin.ext (by match c with | ⟨0, _⟩ => rfl | ⟨1, _⟩ => rfl)
theorem idx_v55 (n : Fin 262144) (a : Fin 4) : idx_main_v55 (ix3 n a (0 : Fin 1)) = ix2 n a :=
  funext fun c => Fin.ext (by match c with | ⟨0, _⟩ => rfl | ⟨1, _⟩ => rfl)
theorem idx_v60 (n : Fin 262144) (a : Fin 4) (e : Fin 256) : idx_main_v60 (ix3 n a e) = ix3 n a (0 : Fin 1) :=
  funext fun c => Fin.ext (by match c with | ⟨0, _⟩ => rfl | ⟨1, _⟩ => rfl | ⟨2, _⟩ => rfl)
theorem idx_v62 (n : Fin 262144) (a : Fin 4) (e : Fin 256) : idx_main_v62 (ix3 n a e) = ix3 n a (0 : Fin 1) :=
  funext fun c => Fin.ext (by match c with | ⟨0, _⟩ => rfl | ⟨1, _⟩ => rfl | ⟨2, _⟩ => rfl)
theorem idx_v65 (n : Fin 262144) (e : Fin 256) (a : Fin 4) : idx_main_v65 (ix2 n e) a = ix3 n a e :=
  funext fun c => Fin.ext (by match c with | ⟨0, _⟩ => rfl | ⟨1, _⟩ => rfl | ⟨2, _⟩ => rfl)
theorem idx_v68 (e j : Fin 256) : idx_main_v68 (ix2 e j) = ix2 j e :=
  funext fun c => Fin.ext (by match c with | ⟨0, _⟩ => rfl | ⟨1, _⟩ => rfl)
theorem lidx_v69 (n : Fin 262144) (j e : Fin 256) : lidx_main_v69 (ix2 n j) e = ix2 n e :=
  funext fun c => Fin.ext (by match c with | ⟨0, _⟩ => rfl | ⟨1, _⟩ => rfl)
theorem ridx_v69 (n : Fin 262144) (j e : Fin 256) : ridx_main_v69 (ix2 n j) e = ix2 e j :=
  funext fun c => Fin.ext (by match c with | ⟨0, _⟩ => rfl | ⟨1, _⟩ => rfl)
theorem idx_v70 (j : Fin 256) : idx_main_v70 (ix2 (0 : Fin 1) j) = ix1 j :=
  funext fun c => Fin.ext (by match c with | ⟨0, _⟩ => rfl)
theorem idx_v71 (n : Fin 262144) (j : Fin 256) : idx_main_v71 (ix2 n j) = ix2 (0 : Fin 1) j :=
  funext fun c => Fin.ext (by match c with | ⟨0, _⟩ => rfl | ⟨1, _⟩ => rfl)
theorem idx_v76 (j : Fin 256) (o : Fin 3) : idx_main_v76 (ix2 j o) = ix2 o j :=
  funext fun c => Fin.ext (by match c with | ⟨0, _⟩ => rfl | ⟨1, _⟩ => rfl)
theorem lidx_v77 (n : Fin 262144) (o : Fin 3) (j : Fin 256) : lidx_main_v77 (ix2 n o) j = ix2 n j :=
  funext fun c => Fin.ext (by match c with | ⟨0, _⟩ => rfl | ⟨1, _⟩ => rfl)
theorem ridx_v77 (n : Fin 262144) (o : Fin 3) (j : Fin 256) : ridx_main_v77 (ix2 n o) j = ix2 j o :=
  funext fun c => Fin.ext (by match c with | ⟨0, _⟩ => rfl | ⟨1, _⟩ => rfl)
theorem idx_v78 (o : Fin 3) : idx_main_v78 (ix2 (0 : Fin 1) o) = ix1 o :=
  funext fun c => Fin.ext (by match c with | ⟨0, _⟩ => rfl)
theorem idx_v79 (n : Fin 262144) (o : Fin 3) : idx_main_v79 (ix2 n o) = ix2 (0 : Fin 1) o :=
  funext fun c => Fin.ext (by match c with | ⟨0, _⟩ => rfl | ⟨1, _⟩ => rfl)

/-! ## Positions on the lattice -/

/-- The coordinates clamped to `[-1, 1]`. -/
theorem v0_eq (j : S262144x2.Idx) : val_main_v0 (F := Ideal) X j = Spec.clip1 (X j) := by
  rw [val_main_v0_apply, val_main_call0_v4_apply, val_main_call0_v2_apply, val_main_call0_v1_apply]
  rfl

/-- Half the sum of the two clamped coordinates. -/
theorem v5_eq (n : Fin 262144) :
    val_main_v5 (F := Ideal) X (ix2 n (0 : Fin 1))
      = (Spec.clip1 (X (ix2 n (0 : Fin 2))) + Spec.clip1 (X (ix2 n (1 : Fin 2)))) * Spec.cHalf := by
  rw [val_main_v5_apply, val_main_v3_apply, val_main_v1_apply, val_main_v2_apply, val_main_v4_apply, idx_v1, idx_v2,
    v0_eq, v0_eq]
  rfl

/-- Half the difference of the two clamped coordinates. -/
theorem v10_eq (n : Fin 262144) :
    val_main_v10 (F := Ideal) X (ix2 n (0 : Fin 1))
      = (Spec.clip1 (X (ix2 n (0 : Fin 2))) - Spec.clip1 (X (ix2 n (1 : Fin 2)))) * Spec.cHalf := by
  rw [val_main_v10_apply, val_main_v8_apply, val_main_v6_apply, val_main_v7_apply, val_main_v9_apply, idx_v6, idx_v7,
    v0_eq, v0_eq]
  rfl

/-- The row of four axis coordinates of point `n`. -/
theorem v11_eq (n : Fin 262144) (a : Fin 4) :
    val_main_v11 (F := Ideal) X (ix2 n a)
      = Spec.axisVal (Spec.clip1 (X (ix2 n (0 : Fin 2)))) (Spec.clip1 (X (ix2 n (1 : Fin 2)))) a := by
  unfold val_main_v11
  match a with
  | ⟨0, _⟩ => exact (cat4_apply_pair _ _ _ _ n (0 : Fin 2)).trans (v0_eq X _)
  | ⟨1, _⟩ => exact (cat4_apply_pair _ _ _ _ n (1 : Fin 2)).trans (v0_eq X _)
  | ⟨2, _⟩ => exact (cat4_apply_2 _ _ _ _ n).trans (v5_eq X n)
  | ⟨3, _⟩ => exact (cat4_apply_3 _ _ _ _ n).trans (v10_eq X n)

/-- The position of point `n` on axis `a`. -/
theorem v18_eq (n : Fin 262144) (a : Fin 4) : val_main_v18 (F := Ideal) X (ix2 n a) = Spec.tpos X n a := by
  rw [val_main_v18_apply, val_main_v16_apply, val_main_v14_apply, val_main_v12_apply, val_main_call1_v2_apply, v11_eq,
    val_main_v17_apply, val_main_v15_apply, val_main_v13_apply, val_main_call1_v4_apply, val_main_call1_v1_apply]
  rfl

/-- Its integer part, as a 32-bit integer. -/
theorem v20_eq (n : Fin 262144) (a : Fin 4) : val_main_v20 (F := Ideal) X (ix2 n a) = Spec.cell X n a := by
  rw [val_main_v20_apply, val_main_v19_apply, v18_eq]
  rfl

/-- Its fractional part. -/
theorem v22_eq (n : Fin 262144) (a : Fin 4) : val_main_v22 (F := Ideal) X (ix2 n a) = Spec.frac X n a := by
  rw [val_main_v22_apply, val_main_v21_apply, v20_eq, v18_eq]
  rfl

theorem v23_eq (n : Fin 262144) (a : Fin 4) : val_main_v23 (F := Ideal) X (ix3 n a (0 : Fin 1)) = Spec.frac X n a := by
  rw [val_main_v23_apply, idx_v23, v22_eq]

/-! ## The index pairs: the axis and the row, each wrapped by its extent when negative -/

/-- The axis entry: the axis number wrapped by the extent 4. -/
theorem v30_eq (a : Fin 4) :
    val_main_v30 (F := Ideal) (ix2 (0 : Fin 1) a) = Spec.wrap 4#32 (BitVec.ofNat 32 a.val) := by
  rw [val_main_v30_apply, val_main_v27_apply, val_main_v29_apply, val_main_v25_apply, val_main_v26_apply,
    val_main_v28_apply, idx_v25]
  rfl

theorem v37_eq (n : Fin 262144) (a : Fin 4) :
    val_main_v37 (F := Ideal) (ix3 n a (0 : Fin 1)) = Spec.wrap 4#32 (BitVec.ofNat 32 a.val) := by
  rw [val_main_v37_apply, idx_v37, val_main_v36_apply, idx_v36, v30_eq]

/-- The row entry of the lower neighbour: the integer part wrapped by the extent 512. -/
theorem v38_eq (n : Fin 262144) (a : Fin 4) :
    val_main_v38 (F := Ideal) X (ix3 n a (0 : Fin 1)) = Spec.wrap 512#32 (Spec.cell X n a) := by
  rw [val_main_v38_apply, idx_v38, val_main_v35_apply, val_main_v32_apply, val_main_v34_apply, val_main_v31_apply,
    val_main_v33_apply, v20_eq]
  rfl

theorem v39_eq_0 (n : Fin 262144) (a : Fin 4) :
    val_main_v39 (F := Ideal) X (ix3 n a (0 : Fin 2)) = Spec.wrap 4#32 (BitVec.ofNat 32 a.val) := by
  unfold val_main_v39
  exact (cat2_apply_0 _ _ _ n a).trans (v37_eq n a)

theorem v39_eq_1 (n : Fin 262144) (a : Fin 4) :
    val_main_v39 (F := Ideal) X (ix3 n a (1 : Fin 2)) = Spec.wrap 512#32 (Spec.cell X n a) := by
  unfold val_main_v39
  exact (cat2_apply_1 _ _ _ n a).trans (v38_eq X n a)

/-- The same axis entry, as the second gather spells it. -/
theorem v47_eq (a : Fin 4) :
    val_main_v47 (F := Ideal) (ix2 (0 : Fin 1) a) = Spec.wrap 4#32 (BitVec.ofNat 32 a.val) := by
  rw [val_main_v47_apply, val_main_v44_apply, val_main_v46_apply, val_main_v25_apply, val_main_v43_apply,
    val_main_v45_apply, idx_v25]
  rfl

theorem v54_eq (n : Fin 262144) (a : Fin 4) :
    val_main_v54 (F := Ideal) (ix3 n a (0 : Fin 1)) = Spec.wrap 4#32 (BitVec.ofNat 32 a.val) := by
  rw [val_main_v54_apply, idx_v54, val_main_v53_apply, idx_v53, v47_eq]

/-- The row entry of the upper neighbour: the integer part plus one, wrapped by the extent 512. -/
theorem v55_eq (n : Fin 262144) (a : Fin 4) :
    val_main_v55 (F := Ideal) X (ix3 n a (0 : Fin 1)) = Spec.wrap 512#32 (IntOp.addi (Spec.cell X n a) 1#32) := by
  rw [val_main_v55_apply, idx_v55, val_main_v52_apply, val_main_v49_apply, val_main_v51_apply, val_main_v42_apply,
    val_main_v41_apply, val_main_v48_apply, val_main_v50_apply, v20_eq]
  rfl

theorem v56_eq_0 (n : Fin 262144) (a : Fin 4) :
    val_main_v56 (F := Ideal) X (ix3 n a (0 : Fin 2)) = Spec.wrap 4#32 (BitVec.ofNat 32 a.val) := by
  unfold val_main_v56
  exact (cat2_apply_0 _ _ _ n a).trans (v54_eq n a)

theorem v56_eq_1 (n : Fin 262144) (a : Fin 4) :
    val_main_v56 (F := Ideal) X (ix3 n a (1 : Fin 2)) = Spec.wrap 512#32 (IntOp.addi (Spec.cell X n a) 1#32) := by
  unfold val_main_v56
  exact (cat2_apply_1 _ _ _ n a).trans (v55_eq X n a)

/-! ## The two gathered rows and their mix -/

/-- The lower neighbour's table row. -/
theorem v40_eq (n : Fin 262144) (a : Fin 4) (e : Fin 256) :
    val_main_v40 (F := Ideal) X T (ix3 n a e) = T (ix3 (Spec.axIdx a) (Spec.rowIdx (Spec.cell X n a)) e) := by
  unfold val_main_v40
  rw [gather_rows_apply]
  refine congrArg T (funext fun c => Fin.ext ?_)
  match c with
  | ⟨0, _⟩ => exact congrArg (fun b : BitVec 32 => min b.toInt.toNat 3) (v39_eq_0 X n a)
  | ⟨1, _⟩ => exact congrArg (fun b : BitVec 32 => min b.toInt.toNat 511) (v39_eq_1 X n a)
  | ⟨2, _⟩ => rfl

/-- The upper neighbour's table row. -/
theorem v57_eq (n : Fin 262144) (a : Fin 4) (e : Fin 256) :
    val_main_v57 (F := Ideal) X T (ix3 n a e)
      = T (ix3 (Spec.axIdx a) (Spec.rowIdx (IntOp.addi (Spec.cell X n a) 1#32)) e) := by
  unfold val_main_v57
  rw [gather_rows_apply]
  refine congrArg T (funext fun c => Fin.ext ?_)
  match c with
  | ⟨0, _⟩ => exact congrArg (fun b : BitVec 32 => min b.toInt.toNat 3) (v56_eq_0 X n a)
  | ⟨1, _⟩ => exact congrArg (fun b : BitVec 32 => min b.toInt.toNat 511) (v56_eq_1 X n a)
  | ⟨2, _⟩ => rfl

/-- The two rows mixed with the weights `1 - w` and `w`, `w` the fractional part. -/
theorem v64_eq (n : Fin 262144) (a : Fin 4) (e : Fin 256) :
    val_main_v64 (F := Ideal) X T (ix3 n a e)
      = (Spec.cOne - Spec.frac X n a) * T (ix3 (Spec.axIdx a) (Spec.rowIdx (Spec.cell X n a)) e)
        + Spec.frac X n a * T (ix3 (Spec.axIdx a) (Spec.rowIdx (IntOp.addi (Spec.cell X n a) 1#32)) e) := by
  rw [val_main_v64_apply, val_main_v61_apply, val_main_v63_apply, val_main_v60_apply, val_main_v62_apply, idx_v60, idx_v62,
    val_main_v59_apply, val_main_v58_apply, v23_eq, v40_eq, v57_eq]
  rfl

/-- The embedding: the four axes summed from zero, divided by four. -/
theorem v67_eq (n : Fin 262144) (e : Fin 256) :
    val_main_v67 (F := Ideal) X T (ix2 n e) = Spec.embLerp X T n e := by
  rw [val_main_v67_apply, val_main_v65_apply, val_main_v66_apply]
  simp only [idx_v65, v64_eq]
  rfl

/-! ## The decoder -/

/-- The first linear layer's product: row `j` of `W1` against the embedding of point `n`. -/
theorem v69_eq (n : Fin 262144) (j : Fin 256) :
    val_main_v69 (F := Ideal) X T W1 (ix2 n j) = ∑ e : Fin 256, Spec.embLerp X T n e * W1 (ix2 j e) := by
  rw [val_main_v69_apply]
  refine Finset.sum_congr rfl fun e _ => ?_
  rw [lidx_v69, ridx_v69, val_main_v68_apply, idx_v68, v67_eq]

theorem v71_eq (n : Fin 262144) (j : Fin 256) : val_main_v71 (F := Ideal) b1 (ix2 n j) = b1 (ix1 j) := by
  rw [val_main_v71_apply, idx_v71, val_main_v70_apply, idx_v70]

/-- The hidden activations. -/
theorem v75_eq (n : Fin 262144) (j : Fin 256) :
    val_main_v75 (F := Ideal) X T W1 b1 (ix2 n j) = Spec.hidden (Spec.embLerp X T) W1 b1 n j := by
  rw [val_main_v75_apply, val_main_v74_apply, val_main_v72_apply, val_main_v73_apply, v69_eq, v71_eq]
  rfl

/-- The second linear layer's product. -/
theorem v77_eq (n : Fin 262144) (o : Fin 3) :
    val_main_v77 (F := Ideal) X T W1 b1 W2 (ix2 n o)
      = ∑ j : Fin 256, Spec.hidden (Spec.embLerp X T) W1 b1 n j * W2 (ix2 o j) := by
  rw [val_main_v77_apply]
  refine Finset.sum_congr rfl fun j _ => ?_
  rw [lidx_v77, ridx_v77, val_main_v76_apply, idx_v76, v75_eq]

theorem v79_eq (n : Fin 262144) (o : Fin 3) : val_main_v79 (F := Ideal) b2 (ix2 n o) = b2 (ix1 o) := by
  rw [val_main_v79_apply, idx_v79, val_main_v78_apply, idx_v78]

/-- **The reference's result array is the specification's decoder applied to its interpolated embedding.** -/
theorem ref_eq :
    val_main_v80 (F := Ideal) X T W1 b1 W2 b2
      = fun i => Spec.decode (Spec.embLerp X T) W1 b1 W2 b2 (i 0) (i 1) := by
  funext i
  obtain ⟨n, o, rfl⟩ : ∃ (n : Fin 262144) (o : Fin 3), i = ix2 n o := ⟨i 0, i 1, eq_ix2 i⟩
  rw [val_main_v80_apply, v77_eq, v79_eq]
  rfl

end Cert.ReferenceIdeal.RefValue

end
-- ==== Proof.KernelScratch.lean ====
/-
  What one grid step leaves in its output block, for any float instance.

  The body writes the four tent-weight bands of a tile of 1024 points side by side into a scratch array of
  1024 × 2048 (band `b` occupies columns `512 b … 512 b + 511`), reads the whole scratch array back, and from it
  and the five other input blocks computes the output block in one store.  Since the four bands tile the scratch
  array, what is read back does not depend on what the scratch held before: it is the overlay `scratch x0` of the
  four band values, each a function of the coordinate block `x0` alone.  So the output block is a closed function
  of the six input blocks.
-/
import proofs.«104324_j4406636446001_2_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

/-- The zero offsets of a rank-2 rectangle, however they are spelt. -/
theorem hz2 : (![0, 0] : Fin 2 → Nat) = fun _ => 0 := funext fun a => by fin_cases a <;> rfl

/-- The four bands of tent weights, newest first, each with the column range it occupies in the scratch array:
    axis 3 (the half difference), axis 2 (the half sum), axis 1, axis 0. -/
def bands (x0 : Vec F S1024x2 .f32) : List (View.Piece (Elt F) S1024x2048 .bf16) :=
  [⟨Rect.unit ![0, 1536] ![1024, 512] inb_S1024x2048_S1024x512_0_1536, k0_pay14 k0_pay7 (k0_pay12 (k0_pay6 x0)) k0_pay13⟩,
   ⟨Rect.unit ![0, 1024] ![1024, 512] inb_S1024x2048_S1024x512_0_1024, k0_pay11 (k0_pay5 x0) k0_pay7⟩,
   ⟨Rect.unit ![0, 512] ![1024, 512] inb_S1024x2048_S1024x512_0_512, k0_pay10 k0_pay7 (k0_pay9 x0) (FloatOps.ofBits FTy.f32 1056964608#32)⟩,
   ⟨Rect.unit ![0, 0] ![1024, 512] inb_S1024x2048_S1024x512_0_0, k0_pay8 x0⟩]

/-- The scratch array as the body reads it back: the overlay of the four bands. -/
def scratch (x0 : Vec F S1024x2 .f32) : Vec F S1024x2048 .bf16 := View.canon (bands x0)

/-- The output block one grid step leaves, from its six input blocks: the decoder applied to the scratch array read
    back and to the table, weight and bias blocks. -/
theorem out_eq (c : Dev nD) (i : grid0.Coords) (arg1 : Memref sig .tc .vmem S1024x2 .f32) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x3 .bf16) (harg5 : arg5.IsWhole) (arg6 : Memref sig .tc .vmem S1x3 .f32) (harg6 : arg6.IsWhole) (arg7 : Memref sig .tc .vmem S1024x3 .f32) (harg7 : arg7.IsWhole) (arg8 : Memref sig .tc .vmem S1024x2048 .bf16) (harg8 : arg8.IsWhole)
    (x0 : Vec F S1024x2 .f32) (x1 : Vec F S2048x256 .bf16) (x2 : Vec F S256x256 .bf16) (x3 : Vec F S1x256 .f32) (x4 : Vec F S256x3 .bf16) (x5 : Vec F S1x3 .f32) :
    out0_A_6 c i arg1 harg1 arg2 harg2 arg3 harg3 arg4 harg4 arg5 harg5 arg6 harg6 arg7 harg7 arg8 harg8 x0 x1 x2 x3 x4 x5 = k0_pay1 (k0_pay15 (scratch x0) x1 x2 x3) (k0_pay16 x4) x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread, View.ld_unit_zero (S := S1024x2) hz2, View.ld_unit_zero (S := S2048x256) hz2, View.ld_unit_zero (S := S256x256) hz2, View.ld_unit_zero (S := S1x256) hz2, View.ld_unit_zero (S := S256x3) hz2, View.ld_unit_zero (S := S1x3) hz2]
  rw [View.readCov_eq_canon']
  show k0_pay1 (k0_pay15 (View.ld (View.canon (bands x0)) (Rect.unit ![0, 0] S1024x2048.size inb_S1024x2048_S1024x2048_0_0)) x1 x2 x3) (k0_pay16 x4) x5 = _
  rw [View.ld_unit_zero (S := S1024x2048) hz2]
  rfl

end Cert.KernelIdeal.Block

end
-- ==== Proof.KernelInputs.lean ====
/-
  The six input blocks of a grid step, read at an index as entries of the argument arrays.

  Grid step `t` sees rows `1024 t … 1024 t + 1023` of the coordinate array; the five other operands are seen whole at
  every step.  Before the grid runs, the table array `[4, 512, 256]` is flattened to `[2048, 256]` (entry
  `(k, e)` is entry `(k / 512, k % 512, e)`), the two weight matrices are transposed, and the two bias vectors become
  one-row matrices; the changes of float format in between are the identity on extended reals.
-/
import proofs.«104324_j4406636446001_2_alg».proof.Proof.Gen.KernelIdeal.Value
import proofs.«104324_j4406636446001_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Inputs

open Cert.KernelIdeal Cert.KernelIdeal.Gen Cert.Spec

variable (m : (ℓ : Loc nD τ sig) → Buf (Elt Ideal) ℓ)

/-! ## The block index maps, decided once over the grid -/

theorem idx0_row : ∀ t : Fin cfg0.N, win0_0.index t ⟨0, by decide⟩ = t.val :=
  (by decide +kernel : ∀ t : Fin grid0.N, win0_0.index t ⟨0, by decide⟩ = t.val)
theorem idx0_col : ∀ t : Fin cfg0.N, win0_0.index t ⟨1, by decide⟩ = 0 :=
  (by decide +kernel : ∀ t : Fin grid0.N, win0_0.index t ⟨1, by decide⟩ = 0)
theorem idx1 : ∀ t : Fin cfg0.N, win0_1.index t ⟨0, by decide⟩ = 0 ∧ win0_1.index t ⟨1, by decide⟩ = 0 :=
  (by decide +kernel : ∀ t : Fin grid0.N, win0_1.index t ⟨0, by decide⟩ = 0 ∧ win0_1.index t ⟨1, by decide⟩ = 0)
theorem idx2 : ∀ t : Fin cfg0.N, win0_2.index t ⟨0, by decide⟩ = 0 ∧ win0_2.index t ⟨1, by decide⟩ = 0 :=
  (by decide +kernel : ∀ t : Fin grid0.N, win0_2.index t ⟨0, by decide⟩ = 0 ∧ win0_2.index t ⟨1, by decide⟩ = 0)
theorem idx3 : ∀ t : Fin cfg0.N, win0_3.index t ⟨0, by decide⟩ = 0 ∧ win0_3.index t ⟨1, by decide⟩ = 0 :=
  (by decide +kernel : ∀ t : Fin grid0.N, win0_3.index t ⟨0, by decide⟩ = 0 ∧ win0_3.index t ⟨1, by decide⟩ = 0)
theorem idx4 : ∀ t : Fin cfg0.N, win0_4.index t ⟨0, by decide⟩ = 0 ∧ win0_4.index t ⟨1, by decide⟩ = 0 :=
  (by decide +kernel : ∀ t : Fin grid0.N, win0_4.index t ⟨0, by decide⟩ = 0 ∧ win0_4.index t ⟨1, by decide⟩ = 0)
theorem idx5 : ∀ t : Fin cfg0.N, win0_5.index t ⟨0, by decide⟩ = 0 ∧ win0_5.index t ⟨1, by decide⟩ = 0 :=
  (by decide +kernel : ∀ t : Fin grid0.N, win0_5.index t ⟨0, by decide⟩ = 0 ∧ win0_5.index t ⟨1, by decide⟩ = 0)

/-- The grid has 256 steps. -/
theorem N256 : cfg0.N = 256 := N_0

/-! ## The arrays the grid finds: the host operations before it, read at an index -/

/-- The flattened table array at `(k, e)` is the table entry `(k / 512, k % 512, e)`. -/
theorem tables_flat (c : Dev nD) (k : Fin 2048) (e : Fin 256) :
    (V m c main_v1 : S2048x256.Idx → EReal) (ix2 k e) = m ((c : Thread nD τ).loc main_arg1) (ix3 (axOf k) (rowOf k) e) := by
  have hV : (V m c main_v1 : S2048x256.Idx → EReal)
      = (truncf .bf16 (shapeCast S2048x256 (m ((c : Thread nD τ).loc main_arg1)) shapeCasts_S4x512x256_S2048x256) bitsLt_bf16_f32 : FVec Ideal S2048x256 .bf16) := by
    dsimp only [Gen.V, Gen.hostOps0]; after_results; rfl
  rw [hV]
  show shapeCast S2048x256 (m ((c : Thread nD τ).loc main_arg1)) shapeCasts_S4x512x256_S2048x256 (ix2 k e) = _
  refine shapeCast_apply _ _ _ _ ?_
  show ((⟨3, ![4, 512, 256]⟩ : Shape).rowMajor (ix3 (axOf k) (rowOf k) e)).val = ((⟨2, ![2048, 256]⟩ : Shape).rowMajor (ix2 k e)).val
  rw [Shape.rowMajor_val_three, Shape.rowMajor_val_two]
  show ((k.val / 512) * 512 + k.val % 512) * 256 + e.val = k.val * 256 + e.val
  have := Nat.div_add_mod k.val 512
  omega

/-- The first weight matrix transposed: entry `(e, j)` is `W1 (j, e)`. -/
theorem w1t (c : Dev nD) (e j : Fin 256) :
    (V m c main_v3 : S256x256.Idx → EReal) (ix2 e j) = m ((c : Thread nD τ).loc main_arg2) (ix2 j e) := by
  have hV : (V m c main_v3 : S256x256.Idx → EReal)
      = (truncf .bf16 (transpose S256x256 [1, 0] (m ((c : Thread nD τ).loc main_arg2)) transposes_S256x256_S256x256_1_0) bitsLt_bf16_f32 : FVec Ideal S256x256 .bf16) := by
    dsimp only [Gen.V, Gen.hostOps0]; after_results
  rw [hV]
  exact transpose_ix2_apply _ _ e j

/-- The second weight matrix transposed: entry `(j, o)` is `W2 (o, j)`. -/
theorem w2t (c : Dev nD) (j : Fin 256) (o : Fin 3) :
    (V m c main_v5 : S256x3.Idx → EReal) (ix2 j o) = m ((c : Thread nD τ).loc main_arg4) (ix2 o j) := by
  have hV : (V m c main_v5 : S256x3.Idx → EReal)
      = (truncf .bf16 (transpose S256x3 [1, 0] (m ((c : Thread nD τ).loc main_arg4)) transposes_S3x256_S256x3_1_0) bitsLt_bf16_f32 : FVec Ideal S256x3 .bf16) := by
    dsimp only [Gen.V, Gen.hostOps0]; after_results
  rw [hV]
  exact transpose_ix2_apply _ _ j o

/-- The first bias vector as a one-row matrix. -/
theorem b1row (c : Dev nD) (j : Fin 256) :
    (V m c main_v6 : S1x256.Idx → EReal) (ix2 (0 : Fin 1) j) = m ((c : Thread nD τ).loc main_arg3) (ix1 j) := by
  have hV : (V m c main_v6 : S1x256.Idx → EReal)
      = shapeCast S1x256 (m ((c : Thread nD τ).loc main_arg3)) shapeCasts_S256_S1x256 := by
    dsimp only [Gen.V, Gen.hostOps0]; after_results; rfl
  rw [hV]
  refine shapeCast_apply _ _ _ _ ?_
  show ((⟨1, ![256]⟩ : Shape).rowMajor (ix1 j)).val = ((⟨2, ![1, 256]⟩ : Shape).rowMajor (ix2 (0 : Fin 1) j)).val
  rw [Shape.rowMajor_val_one, Shape.rowMajor_val_two]
  show j.val = 0 * 256 + j.val
  omega

/-- The second bias vector as a one-row matrix. -/
theorem b2row (c : Dev nD) (o : Fin 3) :
    (V m c main_v7 : S1x3.Idx → EReal) (ix2 (0 : Fin 1) o) = m ((c : Thread nD τ).loc main_arg5) (ix1 o) := by
  have hV : (V m c main_v7 : S1x3.Idx → EReal)
      = shapeCast S1x3 (m ((c : Thread nD τ).loc main_arg5)) shapeCasts_S3_S1x3 := by
    dsimp only [Gen.V, Gen.hostOps0]; after_results; rfl
  rw [hV]
  refine shapeCast_apply _ _ _ _ ?_
  show ((⟨1, ![3]⟩ : Shape).rowMajor (ix1 o)).val = ((⟨2, ![1, 3]⟩ : Shape).rowMajor (ix2 (0 : Fin 1) o)).val
  rw [Shape.rowMajor_val_one, Shape.rowMajor_val_two]
  show o.val = 0 * 3 + o.val
  omega

/-! ## The blocks a grid step reads -/

/-- Step `t`'s coordinate block is rows `1024 t …` of the coordinate array. -/
theorem coords_blk (c : Dev nD) (t : Fin cfg0.N) (r : Fin 1024) (a : Fin 2) :
    (iblk m c 0 t : Vec Ideal S1024x2 .f32) (ix2 r a)
      = m ((c : Thread nD τ).loc main_arg0) (ix2 (⟨1024 * t.val + r.val, by have := t.isLt; have := N256; omega⟩ : Fin 262144) a) := by
  unfold iblk
  rw [View.read_apply]
  show V m c main_arg0 _ = _
  rw [V_main_arg0]
  congr 1
  funext d; apply Fin.ext
  match d with
  | ⟨0, _⟩ => show win0_0.index t ⟨0, by decide⟩ * 1024 + 1 * r.val = 1024 * t.val + r.val; rw [idx0_row t]; omega
  | ⟨1, _⟩ => show win0_0.index t ⟨1, by decide⟩ * 2 + 1 * a.val = a.val; rw [idx0_col t]; omega

/-- Every step sees the whole flattened table array. -/
theorem tables_blk (c : Dev nD) (t : Fin cfg0.N) (k : Fin 2048) (e : Fin 256) :
    (iblk m c 1 t : Vec Ideal S2048x256 .bf16) (ix2 k e) = m ((c : Thread nD τ).loc main_arg1) (ix3 (axOf k) (rowOf k) e) := by
  unfold iblk
  rw [View.read_apply]
  show V m c main_v1 _ = _
  refine Eq.trans (congrArg (V m c main_v1) ?_) (tables_flat m c k e)
  funext d; apply Fin.ext
  match d with
  | ⟨0, _⟩ => show win0_1.index t ⟨0, by decide⟩ * 2048 + 1 * (k : Fin 2048).val = (k : Fin 2048).val; rw [(idx1 t).1]; omega
  | ⟨1, _⟩ => show win0_1.index t ⟨1, by decide⟩ * 256 + 1 * (e : Fin 256).val = (e : Fin 256).val; rw [(idx1 t).2]; omega

/-- Every step sees the whole transposed first weight matrix. -/
theorem w1_blk (c : Dev nD) (t : Fin cfg0.N) (e j : Fin 256) :
    (iblk m c 2 t : Vec Ideal S256x256 .bf16) (ix2 e j) = m ((c : Thread nD τ).loc main_arg2) (ix2 j e) := by
  unfold iblk
  rw [View.read_apply]
  show V m c main_v3 _ = _
  refine Eq.trans (congrArg (V m c main_v3) ?_) (w1t m c e j)
  funext d; apply Fin.ext
  match d with
  | ⟨0, _⟩ => show win0_2.index t ⟨0, by decide⟩ * 256 + 1 * (e : Fin 256).val = (e : Fin 256).val; rw [(idx2 t).1]; omega
  | ⟨1, _⟩ => show win0_2.index t ⟨1, by decide⟩ * 256 + 1 * (j : Fin 256).val = (j : Fin 256).val; rw [(idx2 t).2]; omega

/-- Every step sees the first bias row. -/
theorem b1_blk (c : Dev nD) (t : Fin cfg0.N) (j : Fin 256) :
    (iblk m c 3 t : Vec Ideal S1x256 .f32) (ix2 (0 : Fin 1) j) = m ((c : Thread nD τ).loc main_arg3) (ix1 j) := by
  unfold iblk
  rw [View.read_apply]
  show V m c main_v6 _ = _
  refine Eq.trans (congrArg (V m c main_v6) ?_) (b1row m c j)
  funext d; apply Fin.ext
  match d with
  | ⟨0, _⟩ => show win0_3.index t ⟨0, by decide⟩ * 1 + 1 * ((0 : Fin 1) : Fin 1).val = ((0 : Fin 1) : Fin 1).val; rw [(idx3 t).1]; omega
  | ⟨1, _⟩ => show win0_3.index t ⟨1, by decide⟩ * 256 + 1 * (j : Fin 256).val = (j : Fin 256).val; rw [(idx3 t).2]; omega

/-- Every step sees the whole transposed second weight matrix. -/
theorem w2_blk (c : Dev nD) (t : Fin cfg0.N) (j : Fin 256) (o : Fin 3) :
    (iblk m c 4 t : Vec Ideal S256x3 .bf16) (ix2 j o) = m ((c : Thread nD τ).loc main_arg4) (ix2 o j) := by
  unfold iblk
  rw [View.read_apply]
  show V m c main_v5 _ = _
  refine Eq.trans (congrArg (V m c main_v5) ?_) (w2t m c j o)
  funext d; apply Fin.ext
  match d with
  | ⟨0, _⟩ => show win0_4.index t ⟨0, by decide⟩ * 256 + 1 * (j : Fin 256).val = (j : Fin 256).val; rw [(idx4 t).1]; omega
  | ⟨1, _⟩ => show win0_4.index t ⟨1, by decide⟩ * 3 + 1 * (o : Fin 3).val = (o : Fin 3).val; rw [(idx4 t).2]; omega

/-- Every step sees the second bias row. -/
theorem b2_blk (c : Dev nD) (t : Fin cfg0.N) (o : Fin 3) :
    (iblk m c 5 t : Vec Ideal S1x3 .f32) (ix2 (0 : Fin 1) o) = m ((c : Thread nD τ).loc main_arg5) (ix1 o) := by
  unfold iblk
  rw [View.read_apply]
  show V m c main_v7 _ = _
  refine Eq.trans (congrArg (V m c main_v7) ?_) (b2row m c o)
  funext d; apply Fin.ext
  match d with
  | ⟨0, _⟩ => show win0_5.index t ⟨0, by decide⟩ * 1 + 1 * ((0 : Fin 1) : Fin 1).val = ((0 : Fin 1) : Fin 1).val; rw [(idx5 t).1]; omega
  | ⟨1, _⟩ => show win0_5.index t ⟨1, by decide⟩ * 3 + 1 * (o : Fin 3).val = (o : Fin 3).val; rw [(idx5 t).2]; omega

end Cert.KernelIdeal.Inputs

end
-- ==== Proof.KernelPay.lean ====
/-
  The kernel's arithmetic, read one element at a time over the extended reals.

  The kernel body clamps the two coordinates of each of its 1024 points to `[-1, 1]`, forms the four axis
  coordinates, and for each axis writes the 512 tent weights `max 0 (1 - |j - t|)` of the axis position `t`
  into one band of a `[1024, 2048]` scratch array.  It then contracts the whole scratch row against the
  flattened tables, scales by a quarter, and applies the decoder.  Here each of these payloads is read at an
  index `(r, j)`: the four bands as `Spec.tent (Spec.pos …) j`, the decoder as the nested sums it denotes.
-/
import proofs.«104324_j4406636446001_2_alg».proof.Proof.Spec
import proofs.«104324_j4406636446001_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.Spec Cert.KernelIdeal

/-! ## The clamped coordinates and the axis coordinates -/

/-- The block's coordinates clamped to `[-1, 1]`, elementwise. -/
theorem pay2_apply (x0 : Vec Ideal S1024x2 .f32) (r : Fin 1024) (c : Fin 2) :
    Gen.k0_pay2 (F := Ideal) x0 (ix2 r c) = clip1 (x0 (ix2 r c)) := rfl

/-- The first column of the clamped block. -/
theorem pay3_apply (x0 : Vec Ideal S1024x2 .f32) (r : Fin 1024) :
    Gen.k0_pay3 (F := Ideal) x0 (ix2 r 0) = clip1 (x0 (ix2 r 0)) := by
  unfold Gen.k0_pay3
  exact (slice2_axis1_apply 0 _ _ r 0 0 rfl).trans (pay2_apply x0 r 0)

/-- The second column of the clamped block. -/
theorem pay4_apply (x0 : Vec Ideal S1024x2 .f32) (r : Fin 1024) :
    Gen.k0_pay4 (F := Ideal) x0 (ix2 r 0) = clip1 (x0 (ix2 r 1)) := by
  unfold Gen.k0_pay4
  exact (slice2_axis1_apply 1 _ _ r 0 1 rfl).trans (pay2_apply x0 r 1)

/-- Half the sum of the two clamped coordinates: the third axis coordinate. -/
theorem pay5_apply (x0 : Vec Ideal S1024x2 .f32) (r : Fin 1024) :
    Gen.k0_pay5 (F := Ideal) x0 (ix2 r 0) = (clip1 (x0 (ix2 r 0)) + clip1 (x0 (ix2 r 1))) * cHalf := by
  show (Gen.k0_pay3 (F := Ideal) x0 (ix2 r 0) + Gen.k0_pay4 (F := Ideal) x0 (ix2 r 0)) * cHalf = _
  rw [pay3_apply, pay4_apply]

/-- Half the difference of the two clamped coordinates: the fourth axis coordinate. -/
theorem pay6_apply (x0 : Vec Ideal S1024x2 .f32) (r : Fin 1024) :
    Gen.k0_pay6 (F := Ideal) x0 (ix2 r 0) = (clip1 (x0 (ix2 r 0)) - clip1 (x0 (ix2 r 1))) * cHalf := by
  show (Gen.k0_pay3 (F := Ideal) x0 (ix2 r 0) - Gen.k0_pay4 (F := Ideal) x0 (ix2 r 0)) * cHalf = _
  rw [pay3_apply, pay4_apply]

/-- The lattice rows as floats: entry `(r, j)` is row `j`'s 32-bit word read as a signed integer. -/
theorem pay7_apply (r : Fin 1024) (j : Fin 512) :
    Gen.k0_pay7 (F := Ideal) (ix2 r j) = colF j := by
  unfold Gen.k0_pay7
  show (((iota .tc S1024x512 32 [1] Gen.iota_S1024x512_d1_w32 (ix2 r j)).toInt : ℝ) : EReal) = _
  rw [iota_single_apply]
  rfl

/-- The second clamped coordinate clamped again to `[-1, 0.999]`. -/
theorem pay9_apply (x0 : Vec Ideal S1024x2 .f32) (r : Fin 1024) :
    Gen.k0_pay9 (F := Ideal) x0 (ix2 r 0) = min cTop (max cNeg1 (clip1 (x0 (ix2 r 1)))) := by
  show min cTop (max cNeg1 (Gen.k0_pay4 (F := Ideal) x0 (ix2 r 0))) = _
  rw [pay4_apply]

/-- The lower clamp of an axis coordinate. -/
theorem pay12_apply (v : FVec Ideal S1024x1 .f32) (r : Fin 1024) :
    Gen.k0_pay12 (F := Ideal) v (ix2 r 0) = max cNeg1 (v (ix2 r 0)) := rfl

/-- The upper clamp's bound, in every row. -/
theorem pay13_apply (r : Fin 1024) : Gen.k0_pay13 (F := Ideal) (ix2 r 0) = cTop := rfl

/-! ## The tent weights of one axis -/

/-- A column `[1024, 1]` broadcast over the 512 lattice rows reads, at `(r, j)`, the column's entry of row `r`. -/
theorem bcast_col {α : Type} (v : S1024x1.Idx → α) (h : S1024x1.Broadcasts S1024x512) (r : Fin 1024) (j : Fin 512) :
    broadcastTo S1024x512 v h (ix2 r j) = v (ix2 r 0) := by
  refine broadcastTo_apply v h (ix2 r j) (ix2 r 0) fun ax => ?_
  match ax with
  | ⟨0, _⟩ => rfl
  | ⟨1, _⟩ => rfl

/-- The tail the four bands share: from the lattice rows `c` and a column of positions `t`, the weights
    `max 0 (1 - |c - t|)`, narrowed (the identity on extended reals) and cast to their own shape. -/
theorem tail_apply (c : FVec Ideal S1024x512 .f32) (t : FVec Ideal S1024x1 .f32)
    (hb : S1024x1.Broadcasts S1024x512) (hlt : FTy.bits .bf16 < FTy.bits .f32)
    (hs : S1024x512.ShapeCasts S1024x512) (r : Fin 1024) (j : Fin 512) :
    shapeCast S1024x512
        (truncf .bf16
          (maximumf (broadcast S1024x512 (Scalar.ofBits (F := Ideal) .f32 0x00000000#32))
            (subf (broadcast S1024x512 (Scalar.ofBits (F := Ideal) .f32 0x3F800000#32))
              (absf (subf c (broadcastTo S1024x512 t hb))))) hlt) hs (ix2 r j)
      = max cZero (cOne - max (c (ix2 r j) - t (ix2 r 0)) (-(c (ix2 r j) - t (ix2 r 0)))) := by
  rw [shapeCast_self]
  show max cZero (cOne - max (c (ix2 r j) - broadcastTo S1024x512 t hb (ix2 r j))
    (-(c (ix2 r j) - broadcastTo S1024x512 t hb (ix2 r j)))) = _
  rw [bcast_col]

/-- The band of axis 0: the tent weights of the first clamped coordinate's position. -/
theorem band0 (x0 : Vec Ideal S1024x2 .f32) (r : Fin 1024) (j : Fin 512) :
    Gen.k0_pay8 (F := Ideal) x0 (ix2 r j) = tent (pos (clip1 (x0 (ix2 r 0)))) j := by
  unfold Gen.k0_pay8
  refine (tail_apply _ _ _ _ _ r j).trans ?_
  rw [pay7_apply]
  show max cZero (cOne - max
      (colF j - (cHalf * min cTop (max cNeg1 (Gen.k0_pay3 (F := Ideal) x0 (ix2 r 0))) + cHalf) * c511)
      (-(colF j - (cHalf * min cTop (max cNeg1 (Gen.k0_pay3 (F := Ideal) x0 (ix2 r 0))) + cHalf) * c511))) = _
  rw [pay3_apply]
  rfl

/-- The band of axis 1, for any spelling `h` of the constant one half. -/
theorem band1_of (x0 : Vec Ideal S1024x2 .f32) (h : Ideal .f32) (hh : h = cHalf) (r : Fin 1024) (j : Fin 512) :
    Gen.k0_pay10 (F := Ideal) Gen.k0_pay7 (Gen.k0_pay9 x0) h (ix2 r j) = tent (pos (clip1 (x0 (ix2 r 1)))) j := by
  subst hh
  unfold Gen.k0_pay10
  refine (tail_apply _ _ _ _ _ r j).trans ?_
  rw [pay7_apply]
  show max cZero (cOne - max
      (colF j - (cHalf * Gen.k0_pay9 (F := Ideal) x0 (ix2 r 0) + cHalf) * c511)
      (-(colF j - (cHalf * Gen.k0_pay9 (F := Ideal) x0 (ix2 r 0) + cHalf) * c511))) = _
  rw [pay9_apply]
  rfl

/-- The band of axis 1: the tent weights of the second clamped coordinate's position. -/
theorem band1 (x0 : Vec Ideal S1024x2 .f32) (r : Fin 1024) (j : Fin 512) :
    Gen.k0_pay10 (F := Ideal) Gen.k0_pay7 (Gen.k0_pay9 x0) (Scalar.ofBits .f32 0x3F000000#32) (ix2 r j)
      = tent (pos (clip1 (x0 (ix2 r 1)))) j :=
  band1_of x0 _ rfl r j

/-- The same with the constant spelt as the float instance's own reading of the word. -/
theorem band1_ofBits (x0 : Vec Ideal S1024x2 .f32) (r : Fin 1024) (j : Fin 512) :
    Gen.k0_pay10 (F := Ideal) Gen.k0_pay7 (Gen.k0_pay9 x0) (FloatOps.ofBits FTy.f32 1056964608#32) (ix2 r j)
      = tent (pos (clip1 (x0 (ix2 r 1)))) j :=
  band1_of x0 _ rfl r j

/-- The band of axis 2: the tent weights of the half sum's position. -/
theorem band2 (x0 : Vec Ideal S1024x2 .f32) (r : Fin 1024) (j : Fin 512) :
    Gen.k0_pay11 (F := Ideal) (Gen.k0_pay5 x0) Gen.k0_pay7 (ix2 r j)
      = tent (pos ((clip1 (x0 (ix2 r 0)) + clip1 (x0 (ix2 r 1))) * cHalf)) j := by
  unfold Gen.k0_pay11
  refine (tail_apply _ _ _ _ _ r j).trans ?_
  rw [pay7_apply]
  show max cZero (cOne - max
      (colF j - (cHalf * min cTop (max cNeg1 (Gen.k0_pay5 (F := Ideal) x0 (ix2 r 0))) + cHalf) * c511)
      (-(colF j - (cHalf * min cTop (max cNeg1 (Gen.k0_pay5 (F := Ideal) x0 (ix2 r 0))) + cHalf) * c511))) = _
  rw [pay5_apply]
  rfl

/-- The band of axis 3: the tent weights of the half difference's position. -/
theorem band3 (x0 : Vec Ideal S1024x2 .f32) (r : Fin 1024) (j : Fin 512) :
    Gen.k0_pay14 (F := Ideal) Gen.k0_pay7 (Gen.k0_pay12 (Gen.k0_pay6 x0)) Gen.k0_pay13 (ix2 r j)
      = tent (pos ((clip1 (x0 (ix2 r 0)) - clip1 (x0 (ix2 r 1))) * cHalf)) j := by
  unfold Gen.k0_pay14
  refine (tail_apply _ _ _ _ _ r j).trans ?_
  rw [pay7_apply]
  show max cZero (cOne - max
      (colF j - (cHalf * min cTop (max cNeg1 (Gen.k0_pay6 (F := Ideal) x0 (ix2 r 0))) + cHalf) * c511)
      (-(colF j - (cHalf * min cTop (max cNeg1 (Gen.k0_pay6 (F := Ideal) x0 (ix2 r 0))) + cHalf) * c511))) = _
  rw [pay6_apply]
  rfl

/-- The four bands as one family indexed by the axis. -/
def band (x0 : Vec Ideal S1024x2 .f32) : Fin 4 → FVec Ideal S1024x512 .bf16
  | ⟨0, _⟩ => Gen.k0_pay8 (F := Ideal) x0
  | ⟨1, _⟩ => Gen.k0_pay10 (F := Ideal) Gen.k0_pay7 (Gen.k0_pay9 x0) (Scalar.ofBits .f32 0x3F000000#32)
  | ⟨2, _⟩ => Gen.k0_pay11 (F := Ideal) (Gen.k0_pay5 x0) Gen.k0_pay7
  | ⟨3, _⟩ => Gen.k0_pay14 (F := Ideal) Gen.k0_pay7 (Gen.k0_pay12 (Gen.k0_pay6 x0)) Gen.k0_pay13

/-- Band `a` at `(r, j)` is the tent weight of lattice row `j` for the position of point `r` on axis `a`. -/
theorem band_apply (x0 : Vec Ideal S1024x2 .f32) (a : Fin 4) (r : Fin 1024) (j : Fin 512) :
    band x0 a (ix2 r j) = tent (pos (axisVal (clip1 (x0 (ix2 r 0))) (clip1 (x0 (ix2 r 1))) a)) j := by
  match a with
  | ⟨0, _⟩ => exact band0 x0 r j
  | ⟨1, _⟩ => exact band1 x0 r j
  | ⟨2, _⟩ => exact band2 x0 r j
  | ⟨3, _⟩ => exact band3 x0 r j

/-! ## A plain matrix product read at an index -/

/-- A `tpu.matmul` of an `[m, k]` by a `[k, n]` operand into the zero accumulator, contracting the left operand's
    columns against the right operand's rows, read at `(r, c)`: the sum over the `k` contraction positions. The four
    hypotheses say which output or contraction coordinate each operand coordinate reads. -/
theorem matmul_plain_apply {m k n : Nat} {φ₁ φ₂ : FTy}
    (D : DotDims ⟨2, ![m, k]⟩ ⟨2, ![k, n]⟩ ⟨2, ![m, n]⟩) (prec : Option ContractPrecision)
    (hr : D.contr.rank = 1) (hs : D.contr.size ⟨0, by omega⟩ = k)
    (hl0 : ∀ (i : (⟨2, ![m, n]⟩ : Shape).Idx) (q : D.contr.Idx), (D.lhsIdx i q ⟨0, Nat.zero_lt_two⟩).val = (i ⟨0, Nat.zero_lt_two⟩).val)
    (hl1 : ∀ (i : (⟨2, ![m, n]⟩ : Shape).Idx) (q : D.contr.Idx), (D.lhsIdx i q ⟨1, Nat.one_lt_two⟩).val = (q ⟨0, by omega⟩).val)
    (hr0 : ∀ (i : (⟨2, ![m, n]⟩ : Shape).Idx) (q : D.contr.Idx), (D.rhsIdx i q ⟨0, Nat.zero_lt_two⟩).val = (q ⟨0, by omega⟩).val)
    (hr1 : ∀ (i : (⟨2, ![m, n]⟩ : Shape).Idx) (q : D.contr.Idx), (D.rhsIdx i q ⟨1, Nat.one_lt_two⟩).val = (i ⟨1, Nat.one_lt_two⟩).val)
    (lhs : FVec Ideal ⟨2, ![m, k]⟩ φ₁) (rhs : FVec Ideal ⟨2, ![k, n]⟩ φ₂) (r : Fin m) (c : Fin n) :
    FloatOps.matmul D prec lhs rhs (constant ⟨2, ![m, n]⟩ .f32 0x00000000#32) (ix2 r c)
      = ∑ q : Fin k, lhs (ix2 r q) * rhs (ix2 q c) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 r c) ((contrEquiv1 D k hr hs).symm q) = ix2 r q := funext fun a => Fin.ext (by
    match a with
    | ⟨0, _⟩ => exact hl0 _ _
    | ⟨1, _⟩ => exact (hl1 _ _).trans hq)
  have er : D.rhsIdx (ix2 r c) ((contrEquiv1 D k hr hs).symm q) = ix2 q c := funext fun a => Fin.ext (by
    match a with
    | ⟨0, _⟩ => exact (hr0 _ _).trans hq
    | ⟨1, _⟩ => exact hr1 _ _)
  rw [el, er]

/-- The table contraction: `[1024, 2048]` by `[2048, 256]`. -/
theorem dotTab_apply (lhs : FVec Ideal S1024x2048 .bf16) (rhs : FVec Ideal S2048x256 .bf16) (r : Fin 1024) (c : Fin 256) :
    FloatOps.matmul dot_S1024x2048_S2048x256_S1024x256_1_0_0_1_n_n none lhs rhs (constant S1024x256 .f32 0x00000000#32) (ix2 r c)
      = ∑ q : Fin 2048, lhs (ix2 r q) * rhs (ix2 q c) :=
  matmul_plain_apply dot_S1024x2048_S2048x256_S1024x256_1_0_0_1_n_n none rfl rfl
    (fun i q => by
      unfold DotDims.lhsIdx
      rw [dif_neg (show ¬(⟨0, Nat.zero_lt_two⟩ : Fin S1024x2048.rank) ∈ dot_S1024x2048_S2048x256_S1024x256_1_0_0_1_n_n.lhsBatch by decide),
        dif_pos (show (⟨0, Nat.zero_lt_two⟩ : Fin S1024x2048.rank) ∈ dot_S1024x2048_S2048x256_S1024x256_1_0_0_1_n_n.lhsNonContracting by decide)]
      rfl)
    (fun i q => dot_S1024x2048_S2048x256_S1024x256_1_0_0_1_n_n.lhsIdx_val_of_single rfl i q)
    (fun i q => dot_S1024x2048_S2048x256_S1024x256_1_0_0_1_n_n.rhsIdx_val_of_single rfl i q)
    (fun i q => by
      unfold DotDims.rhsIdx
      rw [dif_neg (show ¬(⟨1, Nat.one_lt_two⟩ : Fin S2048x256.rank) ∈ dot_S1024x2048_S2048x256_S1024x256_1_0_0_1_n_n.rhsBatch by decide),
        dif_pos (show (⟨1, Nat.one_lt_two⟩ : Fin S2048x256.rank) ∈ dot_S1024x2048_S2048x256_S1024x256_1_0_0_1_n_n.rhsNonContracting by decide)]
      rfl)
    lhs rhs r c

/-- The first linear layer: `[1024, 256]` by `[256, 256]`. -/
theorem dotHid_apply (lhs : FVec Ideal S1024x256 .bf16) (rhs : FVec Ideal S256x256 .bf16) (r : Fin 1024) (c : Fin 256) :
    FloatOps.matmul dot_S1024x256_S256x256_S1024x256_1_0_0_1_n_n none lhs rhs (constant S1024x256 .f32 0x00000000#32) (ix2 r c)
      = ∑ q : Fin 256, lhs (ix2 r q) * rhs (ix2 q c) :=
  matmul_plain_apply dot_S1024x256_S256x256_S1024x256_1_0_0_1_n_n none rfl rfl
    (fun i q => by
      unfold DotDims.lhsIdx
      rw [dif_neg (show ¬(⟨0, Nat.zero_lt_two⟩ : Fin S1024x256.rank) ∈ dot_S1024x256_S256x256_S1024x256_1_0_0_1_n_n.lhsBatch by decide),
        dif_pos (show (⟨0, Nat.zero_lt_two⟩ : Fin S1024x256.rank) ∈ dot_S1024x256_S256x256_S1024x256_1_0_0_1_n_n.lhsNonContracting by decide)]
      rfl)
    (fun i q => dot_S1024x256_S256x256_S1024x256_1_0_0_1_n_n.lhsIdx_val_of_single rfl i q)
    (fun i q => dot_S1024x256_S256x256_S1024x256_1_0_0_1_n_n.rhsIdx_val_of_single rfl i q)
    (fun i q => by
      unfold DotDims.rhsIdx
      rw [dif_neg (show ¬(⟨1, Nat.one_lt_two⟩ : Fin S256x256.rank) ∈ dot_S1024x256_S256x256_S1024x256_1_0_0_1_n_n.rhsBatch by decide),
        dif_pos (show (⟨1, Nat.one_lt_two⟩ : Fin S256x256.rank) ∈ dot_S1024x256_S256x256_S1024x256_1_0_0_1_n_n.rhsNonContracting by decide)]
      rfl)
    lhs rhs r c

/-- The second linear layer: `[1024, 256]` by `[256, 3]`. -/
theorem dotOut_apply (lhs : FVec Ideal S1024x256 .bf16) (rhs : FVec Ideal S256x3 .bf16) (r : Fin 1024) (c : Fin 3) :
    FloatOps.matmul dot_S1024x256_S256x3_S1024x3_1_0_0_1_n_n none lhs rhs (constant S1024x3 .f32 0x00000000#32) (ix2 r c)
      = ∑ q : Fin 256, lhs (ix2 r q) * rhs (ix2 q c) :=
  matmul_plain_apply dot_S1024x256_S256x3_S1024x3_1_0_0_1_n_n none rfl rfl
    (fun i q => by
      unfold DotDims.lhsIdx
      rw [dif_neg (show ¬(⟨0, Nat.zero_lt_two⟩ : Fin S1024x256.rank) ∈ dot_S1024x256_S256x3_S1024x3_1_0_0_1_n_n.lhsBatch by decide),
        dif_pos (show (⟨0, Nat.zero_lt_two⟩ : Fin S1024x256.rank) ∈ dot_S1024x256_S256x3_S1024x3_1_0_0_1_n_n.lhsNonContracting by decide)]
      rfl)
    (fun i q => dot_S1024x256_S256x3_S1024x3_1_0_0_1_n_n.lhsIdx_val_of_single rfl i q)
    (fun i q => dot_S1024x256_S256x3_S1024x3_1_0_0_1_n_n.rhsIdx_val_of_single rfl i q)
    (fun i q => by
      unfold DotDims.rhsIdx
      rw [dif_neg (show ¬(⟨1, Nat.one_lt_two⟩ : Fin S256x3.rank) ∈ dot_S1024x256_S256x3_S1024x3_1_0_0_1_n_n.rhsBatch by decide),
        dif_pos (show (⟨1, Nat.one_lt_two⟩ : Fin S256x3.rank) ∈ dot_S1024x256_S256x3_S1024x3_1_0_0_1_n_n.rhsNonContracting by decide)]
      rfl)
    lhs rhs r c

/-! ## The decoder -/

/-- The hidden activations: the scratch row contracted against the flattened tables, times a quarter, through the
    first linear layer, the bias row added, and the sine of thirty times the result. -/
theorem pay15_apply (scr : Vec Ideal S1024x2048 .bf16) (x1 : Vec Ideal S2048x256 .bf16)
    (x2 : Vec Ideal S256x256 .bf16) (x3 : Vec Ideal S1x256 .f32) (r : Fin 1024) (j : Fin 256) :
    Gen.k0_pay15 (F := Ideal) scr x1 x2 x3 (ix2 r j)
      = Ideal.sin (c30 * ((∑ e : Fin 256, ((∑ k : Fin 2048, scr (ix2 r k) * x1 (ix2 k e)) * cQuarter) * x2 (ix2 e j))
          + x3 (ix2 0 j))) := by
  unfold Gen.k0_pay15
  simp only [shapeCast_self]
  show Ideal.sin (c30 * (FloatOps.matmul (F := Ideal) dot_S1024x256_S256x256_S1024x256_1_0_0_1_n_n none
      (truncf .bf16 (mulf (matmul (F := Ideal) dot_S1024x2048_S2048x256_S1024x256_1_0_0_1_n_n none scr x1
        (constant S1024x256 .f32 0x00000000#32)) (broadcast S1024x256 cQuarter)) Gen.bitsLt_bf16_f32)
      x2 (constant S1024x256 .f32 0x00000000#32) (ix2 r j)
      + broadcastTo S1024x256 x3 Gen.broadcasts_S1x256_S1024x256 (ix2 r j))) = _
  rw [dotHid_apply, broadcastTo_1b_ab_apply]
  refine congrArg (fun z => Ideal.sin (c30 * (z + x3 (ix2 0 j)))) (Finset.sum_congr rfl fun e _ => ?_)
  show (FloatOps.matmul (F := Ideal) dot_S1024x2048_S2048x256_S1024x256_1_0_0_1_n_n none scr x1
      (constant S1024x256 .f32 0x00000000#32) (ix2 r e) * cQuarter) * x2 (ix2 e j) = _
  rw [dotTab_apply]

/-- The second layer's weights pass through a shape cast to their own shape. -/
theorem pay16_eq (x4 : Vec Ideal S256x3 .bf16) : Gen.k0_pay16 (F := Ideal) x4 = x4 :=
  shapeCast_self _ _

/-- The stored block: the hidden activations through the second linear layer, the bias row added. -/
theorem dec (scr : Vec Ideal S1024x2048 .bf16) (x1 : Vec Ideal S2048x256 .bf16) (x2 : Vec Ideal S256x256 .bf16)
    (x3 : Vec Ideal S1x256 .f32) (x4 : Vec Ideal S256x3 .bf16) (x5 : Vec Ideal S1x3 .f32) (r : Fin 1024) (o : Fin 3) :
    Gen.k0_pay1 (F := Ideal) (Gen.k0_pay15 scr x1 x2 x3) (Gen.k0_pay16 x4) x5 (ix2 r o)
      = (∑ j : Fin 256,
          Ideal.sin (c30 * ((∑ e : Fin 256, ((∑ k : Fin 2048, scr (ix2 r k) * x1 (ix2 k e)) * cQuarter) * x2 (ix2 e j))
            + x3 (ix2 0 j))) * x4 (ix2 j o))
        + x5 (ix2 0 o) := by
  rw [pay16_eq]
  unfold Gen.k0_pay1
  simp only [shapeCast_self]
  show FloatOps.matmul (F := Ideal) dot_S1024x256_S256x3_S1024x3_1_0_0_1_n_n none
      (truncf .bf16 (Gen.k0_pay15 (F := Ideal) scr x1 x2 x3) Gen.bitsLt_bf16_f32) x4
      (constant S1024x3 .f32 0x00000000#32) (ix2 r o)
      + broadcastTo S1024x3 x5 Gen.broadcasts_S1x3_S1024x3 (ix2 r o) = _
  rw [dotOut_apply, broadcastTo_1b_ab_apply]
  refine congrArg (· + x5 (ix2 0 o)) (Finset.sum_congr rfl fun j _ => ?_)
  show Gen.k0_pay15 (F := Ideal) scr x1 x2 x3 (ix2 r j) * x4 (ix2 j o) = _
  rw [pay15_apply]

end Cert.KernelIdeal.Pay

end
-- ==== Proof.KernelBlockIdeal.lean ====
/-
  The output block of one grid step is the decoder applied to the tent-weighted embedding of the block's points.

  The scratch array of a tile of 1024 points is the overlay of four bands of 512 columns; band `a` holds, in row `r`
  and column `j`, the tent weight of lattice row `j` for the position of point `r` on axis `a`.  Column `k` of the
  scratch array lies in band `k / 512` at column `k % 512`, and the four bands cover every column, so entry `(r, k)`
  of the scratch array is the tent weight of row `k % 512` on axis `k / 512` — one function of the index, whatever the
  order of the four stores.  Contracting a scratch row against the flattened tables (row `k` of the flattened table is
  row `k % 512` of the table of axis `k / 512`) and multiplying by a quarter gives the tent-weighted embedding of the
  point; the two linear layers and the sine in between are the decoder, with the weight blocks read transposed and
  the bias blocks read as rows.
-/
import proofs.«104324_j4406636446001_2_alg».proof.Proof.KernelScratch
import proofs.«104324_j4406636446001_2_alg».proof.Proof.Spec
import proofs.«104324_j4406636446001_2_alg».proof.Proof.KernelPay

noncomputable section

open scoped BigOperators

open Idealize.ShloMosaic Idealize.ShloMosaic.TcCoe Idealize.SL.Sem

namespace Cert.KernelIdeal.Block

open Cert.KernelIdeal Cert.KernelIdeal.Gen Cert.Spec Idealize.ShloMosaic.ValueIdx

/-! ## The scratch array as one function of its index -/

/-- The tent weight that belongs at row `r`, column `k` of the scratch array: lattice row `k % 512` on axis `k / 512`,
    for the position of point `r` of the coordinate block `x0`. -/
def wAt (x0 : Vec Ideal S1024x2 .f32) (r : Fin 1024) (k : Fin 2048) : EReal :=
  tent (pos (axisVal (clip1 (x0 (ix2 r 0))) (clip1 (x0 (ix2 r 1))) (axOf k))) (rowOf k)

/-- The same as a function of the scratch array's index. -/
def weights (x0 : Vec Ideal S1024x2 .f32) : Vec Ideal S1024x2048 .bf16 :=
  fun y => wAt x0 ⟨(y 0).val, (y 0).isLt⟩ ⟨(y 1).val, (y 1).isLt⟩

theorem wAt_congr (x0 : Vec Ideal S1024x2 .f32) {r r' : Fin 1024} {k k' : Fin 2048} (hr : r.val = r'.val)
    (hk : k.val = k'.val) : wAt x0 r k = wAt x0 r' k' := by
  obtain rfl := Fin.ext hr
  obtain rfl := Fin.ext hk
  rfl

/-- Column `512 a + j` is column `j` of band `a`. -/
theorem wAt_band (x0 : Vec Ideal S1024x2 .f32) (a : Fin 4) (r : Fin 1024) (j : Fin 512) (k : Fin 2048)
    (hk : k.val = 512 * a.val + j.val) :
    wAt x0 r k = tent (pos (axisVal (clip1 (x0 (ix2 r 0))) (clip1 (x0 (ix2 r 1))) a)) j := by
  have ha : axOf k = a := Fin.ext (by show k.val / 512 = a.val; have := j.isLt; omega)
  have hj : rowOf k = j := Fin.ext (by show k.val % 512 = j.val; have := j.isLt; omega)
  rw [wAt, ha, hj]

/-- The function of the index, read under the rectangle of the band that starts at column `c = 512 a`. -/
theorem weights_emb (x0 : Vec Ideal S1024x2 .f32) (a : Fin 4) (c : ℕ) (hc : c = 512 * a.val)
    (inb : ∀ d, (![0, c] : Fin 2 → ℕ) d + (![1024, 512] : Fin 2 → ℕ) d ≤ S1024x2048.size d) (r : Fin 1024) (j : Fin 512) :
    weights x0 ((Rect.unit (s := S1024x2048) ![0, c] ![1024, 512] inb).emb (ix2 r j))
      = tent (pos (axisVal (clip1 (x0 (ix2 r 0))) (clip1 (x0 (ix2 r 1))) a)) j := by
  have e0 : ((Rect.unit (s := S1024x2048) ![0, c] ![1024, 512] inb).emb (ix2 r j) 0).val = r.val := by
    show 0 + 1 * r.val = r.val
    omega
  have e1 : ((Rect.unit (s := S1024x2048) ![0, c] ![1024, 512] inb).emb (ix2 r j) 1).val = c + j.val := by
    show c + 1 * j.val = c + j.val
    omega
  unfold weights
  refine (wAt_congr x0 (r' := r) (k' := ⟨c + j.val, by have := j.isLt; have := a.isLt; omega⟩) e0 e1).trans ?_
  exact wAt_band x0 a r j _ (by show c + j.val = _; omega)

/-- Each of the four bands is the block of `weights` its rectangle names. -/
theorem bands_agree (x0 : Vec Ideal S1024x2 .f32) :
    ∀ p ∈ bands (F := Ideal) x0, ∀ x : p.1.shape.Idx, p.2 x = weights x0 (p.1.emb x) := by
  intro p hp
  unfold bands at hp
  simp only [List.mem_cons, List.not_mem_nil, or_false] at hp
  rcases hp with rfl | rfl | rfl | rfl
  · intro x
    obtain ⟨r, j, rfl⟩ : ∃ (r : Fin 1024) (j : Fin 512), x = ix2 r j := ⟨x 0, x 1, eq_ix2 x⟩
    exact (Pay.band3 x0 r j).trans (weights_emb x0 3 1536 rfl inb_S1024x2048_S1024x512_0_1536 r j).symm
  · intro x
    obtain ⟨r, j, rfl⟩ : ∃ (r : Fin 1024) (j : Fin 512), x = ix2 r j := ⟨x 0, x 1, eq_ix2 x⟩
    exact (Pay.band2 x0 r j).trans (weights_emb x0 2 1024 rfl inb_S1024x2048_S1024x512_0_1024 r j).symm
  · intro x
    obtain ⟨r, j, rfl⟩ : ∃ (r : Fin 1024) (j : Fin 512), x = ix2 r j := ⟨x 0, x 1, eq_ix2 x⟩
    exact (Pay.band1_of x0 _ rfl r j).trans (weights_emb x0 1 512 rfl inb_S1024x2048_S1024x512_0_512 r j).symm
  · intro x
    obtain ⟨r, j, rfl⟩ : ∃ (r : Fin 1024) (j : Fin 512), x = ix2 r j := ⟨x 0, x 1, eq_ix2 x⟩
    exact (Pay.band0 x0 r j).trans (weights_emb x0 0 0 rfl inb_S1024x2048_S1024x512_0_0 r j).symm

/-- Every column lies in one of the four bands. -/
theorem bands_cover (x0 : Vec Ideal S1024x2 .f32) (r : Fin 1024) (k : Fin 2048) :
    ∃ p ∈ bands (F := Ideal) x0, ix2 r k ∈ p.1.set := by
  have hk := k.isLt
  have hr := r.isLt
  unfold bands
  rcases (by omega : k.val < 512 ∨ (512 ≤ k.val ∧ k.val < 1024) ∨ (1024 ≤ k.val ∧ k.val < 1536) ∨ 1536 ≤ k.val)
    with h | h | h | h
  · refine ⟨_, .tail _ (.tail _ (.tail _ (.head _))), ?_⟩
    rw [Rect.mem_set_unit]
    intro d
    match d with
    | ⟨0, _⟩ => exact ⟨Nat.zero_le _, by show r.val < 0 + 1024; omega⟩
    | ⟨1, _⟩ => exact ⟨by show 0 ≤ k.val; omega, by show k.val < 0 + 512; omega⟩
  · refine ⟨_, .tail _ (.tail _ (.head _)), ?_⟩
    rw [Rect.mem_set_unit]
    intro d
    match d with
    | ⟨0, _⟩ => exact ⟨Nat.zero_le _, by show r.val < 0 + 1024; omega⟩
    | ⟨1, _⟩ => exact ⟨by show 512 ≤ k.val; omega, by show k.val < 512 + 512; omega⟩
  · refine ⟨_, .tail _ (.head _), ?_⟩
    rw [Rect.mem_set_unit]
    intro d
    match d with
    | ⟨0, _⟩ => exact ⟨Nat.zero_le _, by show r.val < 0 + 1024; omega⟩
    | ⟨1, _⟩ => exact ⟨by show 1024 ≤ k.val; omega, by show k.val < 1024 + 512; omega⟩
  · refine ⟨_, .head _, ?_⟩
    rw [Rect.mem_set_unit]
    intro d
    match d with
    | ⟨0, _⟩ => exact ⟨Nat.zero_le _, by show r.val < 0 + 1024; omega⟩
    | ⟨1, _⟩ => exact ⟨by show 1536 ≤ k.val; omega, by show k.val < 1536 + 512; omega⟩

/-- Entry `(r, k)` of the scratch array is the tent weight of lattice row `k % 512` for the position of point `r` on
    axis `k / 512`. -/
theorem scratch_apply (x0 : Vec Ideal S1024x2 .f32) (r : Fin 1024) (k : Fin 2048) :
    scratch (F := Ideal) x0 (ix2 r k)
      = tent (pos (axisVal (clip1 (x0 (ix2 r 0))) (clip1 (x0 (ix2 r 1))) (axOf k))) (rowOf k) := by
  unfold scratch
  exact View.canon_apply_of_pieces (weights x0) (bands x0) (bands_agree x0) (ix2 r k) (bands_cover x0 r k)

/-! ## The output block -/

/-- The output block of the grid step whose tile starts at point `n0`: when the six input blocks are the tile of the
    coordinates, the flattened tables, the two weight matrices transposed and the two biases as rows, entry `(r, o)`
    of the stored block is output `o` of the decoder on the tent-weighted embedding of point `n0 + r`. -/
theorem block_apply (X : Coords) (T : Tables) (W1 : Mat1) (b1 : Bias1) (W2 : Mat2) (b2 : Bias2) (n0 : ℕ)
    (hn0 : n0 + 1024 ≤ 262144) (x0 : Vec Ideal S1024x2 .f32) (x1 : Vec Ideal S2048x256 .bf16)
    (x2 : Vec Ideal S256x256 .bf16) (x3 : Vec Ideal S1x256 .f32) (x4 : Vec Ideal S256x3 .bf16)
    (x5 : Vec Ideal S1x3 .f32)
    (h0 : ∀ (r : Fin 1024) (a : Fin 2), x0 (ix2 r a) = X (ix2 (⟨n0 + r.val, by omega⟩ : Fin 262144) a))
    (h1 : ∀ (k : Fin 2048) (e : Fin 256), x1 (ix2 k e) = T (ix3 (axOf k) (rowOf k) e))
    (h2 : ∀ e j : Fin 256, x2 (ix2 e j) = W1 (ix2 j e))
    (h3 : ∀ j : Fin 256, x3 (ix2 (0 : Fin 1) j) = b1 (ix1 j))
    (h4 : ∀ (j : Fin 256) (o : Fin 3), x4 (ix2 j o) = W2 (ix2 o j))
    (h5 : ∀ o : Fin 3, x5 (ix2 (0 : Fin 1) o) = b2 (ix1 o))
    (r : Fin 1024) (o : Fin 3) :
    Gen.k0_pay1 (F := Ideal) (Gen.k0_pay15 (scratch x0) x1 x2 x3) (Gen.k0_pay16 x4) x5 (ix2 r o)
      = decode (embTent X T) W1 b1 W2 b2 (⟨n0 + r.val, by omega⟩ : Fin 262144) o := by
  rw [Pay.dec]
  simp only [scratch_apply, h0, h1, h2, h3, h4, h5]
  rfl

end Cert.KernelIdeal.Block

end
-- ==== Proof.KernelFinal.lean ====
/-
  The kernel's result array, at the ideal instance, is the specification's `result` of the argument arrays.

  Grid step `t` writes back rows `1024 t … 1024 t + 1023` of the result; what it writes is, row by row, the decoder
  of the tent-weighted embedding of the corresponding points (the output block as a function of the input blocks,
  and the input blocks as entries of the argument arrays).  The 256 steps' row ranges tile the 262144 rows, so after
  the last step the whole array holds `result`.
-/
import proofs.«104324_j4406636446001_2_alg».proof.Proof.Gen.KernelIdeal.Value
import proofs.«104324_j4406636446001_2_alg».proof.Proof.KernelScratch
import proofs.«104324_j4406636446001_2_alg».proof.Proof.KernelInputs
import proofs.«104324_j4406636446001_2_alg».proof.Proof.KernelBlockIdeal
import proofs.«104324_j4406636446001_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Spec

variable (m : (ℓ : Loc nD τ sig) → Buf (Elt Ideal) ℓ) (ρ : Dev nD → PrngReg)

/-- The specification's result of core `c`'s argument arrays. -/
abbrev res (c : Dev nD) : S262144x3.Idx → EReal :=
  Cert.Spec.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Step `t` writes block row `t`, block column `0` (decided over the grid). -/
theorem idx6 : ∀ t : Fin cfg0.N, win0_6.index t ⟨0, by decide⟩ = t.val ∧ win0_6.index t ⟨1, by decide⟩ = 0 :=
  (by decide +kernel : ∀ t : Fin grid0.N, win0_6.index t ⟨0, by decide⟩ = t.val ∧ win0_6.index t ⟨1, by decide⟩ = 0)

/-- What step `t` writes back is block `t` of the specification's result. -/
theorem flushed_eq (c : Dev nD) (t : Fin cfg0.N) :
    (dats m 0 c).flushed 6 t = ((cfg0.win 6).blk t).view.read (Elt Ideal) (res m c) := by
  rw [Cert.KernelIdeal.Value.flushed6_A, Cert.KernelIdeal.Block.out_eq]
  have hN : cfg0.N = 256 := N_0
  have ht : t.val < 256 := hN ▸ t.isLt
  funext y
  obtain ⟨r, o, rfl⟩ : ∃ (r : Fin 1024) (o : Fin 3), y = ix2 r o := ⟨y 0, y 1, eq_ix2 y⟩
  show k0_pay1 (F := Ideal) (k0_pay15 (Cert.KernelIdeal.Block.scratch (iblk m c 0 t)) (iblk m c 1 t) (iblk m c 2 t) (iblk m c 3 t))
      (k0_pay16 (iblk m c 4 t)) (iblk m c 5 t) (ix2 r o) = res m c (((cfg0.win 6).blk t).view.emb (ix2 r o))
  refine (Cert.KernelIdeal.Block.block_apply (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (1024 * t.val) (by omega)
    (iblk m c 0 t) (iblk m c 1 t) (iblk m c 2 t) (iblk m c 3 t) (iblk m c 4 t) (iblk m c 5 t)
    (fun r a => Cert.KernelIdeal.Inputs.coords_blk m c t r a) (fun k e => Cert.KernelIdeal.Inputs.tables_blk m c t k e)
    (fun e j => Cert.KernelIdeal.Inputs.w1_blk m c t e j) (fun j => Cert.KernelIdeal.Inputs.b1_blk m c t j)
    (fun j o => Cert.KernelIdeal.Inputs.w2_blk m c t j o) (fun o => Cert.KernelIdeal.Inputs.b2_blk m c t o) r o).trans ?_
  have e0 : (((cfg0.win 6).blk t).view.emb (ix2 r o)) 0 = (⟨1024 * t.val + r.val, by omega⟩ : Fin 262144) := by
    apply Fin.ext
    show win0_6.index t ⟨0, by decide⟩ * 1024 + 1 * r.val = 1024 * t.val + r.val
    rw [(idx6 t).1]; omega
  have e1 : (((cfg0.win 6).blk t).view.emb (ix2 r o)) 1 = o := by
    apply Fin.ext
    show win0_6.index t ⟨1, by decide⟩ * 3 + 1 * o.val = o.val
    rw [(idx6 t).2]; omega
  show _ = decode _ _ _ _ _ ((((cfg0.win 6).blk t).view.emb (ix2 r o)) 0) ((((cfg0.win 6).blk t).view.emb (ix2 r o)) 1)
  rw [e0, e1]

/-- An index of the result array is in step `t`'s block iff each coordinate is in the block's range on its axis. -/
theorem mem_blk (t : Fin cfg0.N) (i : S262144x3.Idx) :
    i ∈ ((cfg0.win 6).blk t).view.set ↔ ∀ a : Fin 2, win0_6.index t a * S1024x3.size a ≤ (i a).val ∧ (i a).val < win0_6.index t a * S1024x3.size a + S1024x3.size a := by
  show i ∈ ((View.whole main_v8).slice (win0_6.rect t)).set ↔ _
  rw [View.set_slice_whole, Rect.mem_set_unit]
  exact Iff.rfl

/-- Every row of the result belongs to the step whose number is the row divided by 1024. -/
theorem cover (i : S262144x3.Idx) : ∃ t : Fin cfg0.N, (cfg0.win 6).flush t = true ∧ i ∈ ((cfg0.win 6).blk t).view.set := by
  have hN : cfg0.N = 256 := N_0
  have hi0 : (i 0).val < 262144 := (i 0).isLt
  have hi1 : (i 1).val < 3 := (i 1).isLt
  refine ⟨⟨(i 0).val / 1024, by rw [hN]; omega⟩, flush0_6 _, ?_⟩
  rw [mem_blk]
  intro a
  match a with
  | ⟨0, _⟩ =>
    show win0_6.index ⟨(i 0).val / 1024, _⟩ ⟨0, by decide⟩ * 1024 ≤ (i 0).val ∧ (i 0).val < win0_6.index ⟨(i 0).val / 1024, _⟩ ⟨0, by decide⟩ * 1024 + 1024
    rw [(idx6 _).1]; show (i 0).val / 1024 * 1024 ≤ (i 0).val ∧ (i 0).val < (i 0).val / 1024 * 1024 + 1024; omega
  | ⟨1, _⟩ =>
    show win0_6.index ⟨(i 0).val / 1024, _⟩ ⟨1, by decide⟩ * 3 ≤ (i 1).val ∧ (i 1).val < win0_6.index ⟨(i 0).val / 1024, _⟩ ⟨1, by decide⟩ * 3 + 3
    rw [(idx6 _).2]; omega

/-- After the last step the result array holds the specification's result. -/
theorem final (c : Dev nD) : (dats m 0 c).arrAt 6 cfg0.N = res m c :=
  (dats m 0 c).arrAt_eq_of_cover 6 (res m c) (fun t _ => flushed_eq m c t) cover

/-- The kernel's run: every weakly fair execution terminates with the result array at the specification's result of
    the argument arrays, which are left unchanged. -/
theorem run : θ_run defs (onTc (τ := τ) (main (F := Ideal))) ⟨m, fun _ => 0, ρ⟩ fun r => ∀ c : Dev nD,
      r.2.mem ((c : Thread nD τ).loc main_v8) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Final

end
-- ==== Proof.lean ====
/-
  The certificate's five claims.

  The kernel interpolates four table rows per query point by summing all 512 rows of each axis' table against
  tent weights `max 0 (1 - |j - t|)` (one contraction of length 2048) and scaling by a quarter; the reference
  gathers the two neighbouring rows `⌊t⌋`, `⌊t⌋ + 1` with weights `1 - (t - ⌊t⌋)`, `t - ⌊t⌋`, sums the four axes and
  divides by four.  Over the extended reals these are one function (the tent weight vanishes off the two
  neighbours and is the interpolation weight on them; `x / 4 = x · (1/4)`), and both programs then apply the same
  decoder.  The three frame claims are the programs' runs with the result dropped; the idealization rewrote
  nothing, so its claim is trivial.
-/
import proofs.«104324_j4406636446001_2_alg».proof.Defs
import proofs.«104324_j4406636446001_2_alg».proof.Proof.Gen.Kernel
import proofs.«104324_j4406636446001_2_alg».proof.Proof.Gen.Kernel.Skeleton
import proofs.«104324_j4406636446001_2_alg».proof.Proof.Gen.Kernel.Launch
import proofs.«104324_j4406636446001_2_alg».proof.Proof.Gen.Kernel.Points
import proofs.«104324_j4406636446001_2_alg».proof.Proof.Gen.Kernel.Frame
import proofs.«104324_j4406636446001_2_alg».proof.Proof.Gen.KernelIdeal
import proofs.«104324_j4406636446001_2_alg».proof.Proof.Gen.KernelIdeal.Skeleton
import proofs.«104324_j4406636446001_2_alg».proof.Proof.Gen.KernelIdeal.Launch
import proofs.«104324_j4406636446001_2_alg».proof.Proof.Gen.KernelIdeal.Points
import proofs.«104324_j4406636446001_2_alg».proof.Proof.Gen.KernelIdeal.Frame
import proofs.«104324_j4406636446001_2_alg».proof.Proof.Gen.ReferenceIdeal
import proofs.«104324_j4406636446001_2_alg».proof.Proof.Gen.KernelIdeal.Value
import proofs.«104324_j4406636446001_2_alg».proof.Proof.Gen.ReferenceIdeal.Run
import proofs.«104324_j4406636446001_2_alg».proof.Proof.Gen.ReferenceIdeal.Read
import proofs.«104324_j4406636446001_2_alg».proof.Proof.Spec
import proofs.«104324_j4406636446001_2_alg».proof.Proof.Interp
import proofs.«104324_j4406636446001_2_alg».proof.Proof.RefValue
import proofs.«104324_j4406636446001_2_alg».proof.Proof.KernelFinal
import proofs.«104324_j4406636446001_2_alg».proof.Proof.Gen.Pre_finite_inputs
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's result of the (agreeing) argument arrays: the kernel by its
    run read block by block, the reference by its run read stage by stage and the identity of the two embeddings. -/
theorem algebraic : Cert.algebraic_KernelIdeal_ReferenceIdeal := by
  intro m ρ m' ρ' _ hagree
  refine ⟨fun c => Cert.KernelIdeal.Final.res m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v80_eq, Cert.ReferenceIdeal.RefValue.ref_eq,
    (hagree c).1, (hagree c).2.1, (hagree c).2.2.1, (hagree c).2.2.2.1, (hagree c).2.2.2.2.1, (hagree c).2.2.2.2.2,
    Cert.Spec.embLerp_eq_embTent]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
